-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096 : Shape := ⟨1, ![4096]⟩
abbrev S4096x1 : Shape := ⟨2, ![4096, 1]⟩
abbrev S1x4096 : Shape := ⟨2, ![1, 4096]⟩
abbrev S256x1024 : Shape := ⟨2, ![256, 1024]⟩
abbrev S256x1 : Shape := ⟨2, ![256, 1]⟩
abbrev S1024x4096 : Shape := ⟨2, ![1024, 4096]⟩
abbrev S256x4096 : Shape := ⟨2, ![256, 4096]⟩
abbrev S256 : Shape := ⟨1, ![256]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .bf16⟩
  | .hbm, ⟨3, _⟩ => ⟨S4096x1, .i32⟩
  | .hbm, ⟨4, _⟩ => ⟨S1x4096, .i32⟩
  | .hbm, ⟨5, _⟩ => ⟨S4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S256x1, .i32⟩
  | .local _ .vmem, ⟨4, _⟩ => ⟨S256x1, .i32⟩
  | .local _ .vmem, ⟨5, _⟩ => ⟨S1x4096, .i32⟩
  | .local _ .vmem, ⟨6, _⟩ => ⟨S256x1, .f32⟩
  | .local _ .vmem, ⟨7, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S4096_S4096x1 : S4096.ShapeCasts S4096x1
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x1024_p1_0_S1024x4096 : S4096x1024.Transposes [1, 0] S1024x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  reducesTo_S4096x1_S_d0_1 : S4096x1.ReducesTo [0, 1] S_
  h_S_ : 0 < S_.numel
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024x4096, .f32⟩
  | .hbm, ⟨3, _⟩ => ⟨S4096x4096, .f32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .i1⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1, .f32⟩
  | .hbm, ⟨30, _⟩ => ⟨S4096x4096, .f32⟩
  | .hbm, ⟨31, _⟩ => ⟨S4096x4096, .i1⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1, .f32⟩
  | .hbm, ⟨37, _⟩ => ⟨S4096x4096, .f32⟩
  | .hbm, ⟨38, _⟩ => ⟨S4096x4096, .i1⟩
  | .hbm, ⟨39, _⟩ => ⟨S4096x4096, .i1⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S_, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .i1⟩
  | .hbm, ⟨75, _⟩ => ⟨S4096, .i1⟩
  | .hbm, ⟨76, _⟩ => ⟨S_, .i1⟩
  | .hbm, ⟨77, _⟩ => ⟨S4096, .i1⟩
  | .hbm, ⟨78, _⟩ => ⟨S4096, .i1⟩
  | .hbm, ⟨79, _⟩ => ⟨S4096, .f32⟩
  | .hbm, ⟨80, _⟩ => ⟨S_, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_call2_v0 : Ref sig .tc := ⟨.hbm, 48, rfl⟩
abbrev main_call2_v1 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_call3_v0 : Ref sig .tc := ⟨.hbm, 61, rfl⟩
abbrev main_call3_v1 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_15 : Ref sig .tc := ⟨.hbm, 71, rfl⟩
abbrev main_v45 : Ref sig .tc := ⟨.hbm, 72, rfl⟩
abbrev main_v46 : Ref sig .tc := ⟨.hbm, 73, rfl⟩
abbrev main_c : Ref sig .tc := ⟨.hbm, 74, rfl⟩
abbrev main_v47 : Ref sig .tc := ⟨.hbm, 75, rfl⟩
abbrev main_c_16 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_17 : Ref sig .tc := ⟨.hbm, 80, rfl⟩
abbrev main_call4_v0 : Ref sig .tc := ⟨.hbm, 81, rfl⟩
abbrev main_call4_v1 : Ref sig .tc := ⟨.hbm, 82, rfl⟩
abbrev main_v51 : Ref sig .tc := ⟨.hbm, 83, rfl⟩
abbrev main_cst_18 : Ref sig .tc := ⟨.hbm, 84, rfl⟩
abbrev main_v52 : Ref sig .tc := ⟨.hbm, 85, rfl⟩
abbrev main_cst_19 : Ref sig .tc := ⟨.hbm, 86, rfl⟩
abbrev main_v53 : Ref sig .tc := ⟨.hbm, 87, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.BodyK.lean ====
/- The kernel body's triple for the printed program `Cert.Kernel`: run on whole staging memrefs, the body leaves
   the output buffer at a named pure function of the input buffers (`Body.out0_4`), and that function is the
   body's arithmetic applied to the buffers themselves (`Body.out0_4_eq`). Stated at any float instance. -/
import proofs.«106479_j75033078661970_1_alg».proof.Proof.Gen.Kernel.Launch
import proofs.«106479_j75033078661970_1_alg».proof.Proof.Gen.Kernel.Skeleton
import proofs.«106479_j75033078661970_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Every access of the body is through the rectangle of a whole buffer: offset zero, the buffer's own extents. -/

/-- The 256x1024 block of features. -/
abbrev r0 : Rect S256x1024 := Rect.unit (s := S256x1024) ![0, 0] S256x1024.size inb_S256x1024_S256x1024_0_0
/-- The whole 4096x1024 array of features. -/
abbrev r1 : Rect S4096x1024 := Rect.unit (s := S4096x1024) ![0, 0] S4096x1024.size inb_S4096x1024_S4096x1024_0_0
/-- The 256x1 block of labels, and the 256x1 block of per-row losses (one shape, one rectangle). -/
abbrev r2 : Rect S256x1 := Rect.unit (s := S256x1) ![0, 0] S256x1.size inb_S256x1_S256x1_0_0
/-- The whole 1x4096 row of labels. -/
abbrev r3 : Rect S1x4096 := Rect.unit (s := S1x4096) ![0, 0] S1x4096.size inb_S1x4096_S1x4096_0_0

/-- The offsets of all of them are zero. -/
theorem zeros2 : (![0, 0] : Fin 2 → Nat) = fun _ => 0 := funext fun a => by fin_cases a <;> rfl

/-! ## What the body leaves in the output buffer -/

/-- The output buffer after the body, from the input buffers: its one store as a piece over the loads. -/
def out0_4 (x0 : Vec F S256x1024 .bf16) (x1 : Vec F S4096x1024 .bf16) (x2 : Vec F S256x1 .i32) (x3 : Vec F S1x4096 .i32) : Vec F S256x1 .f32 :=
  View.canon [⟨r2, k0_pay1 (k0_pay2 (View.ld x0 r0) (View.ld x1 r1))
    (k0_pay6 (View.ld x0 r0) (View.ld x1 r1) (View.ld x2 r2) (View.ld x3 r3))
    (k0_pay7 (View.ld x0 r0) (View.ld x1 r1) (View.ld x2 r2) (View.ld x3 r3))
    (k0_pay8 (View.ld x0 r0) (View.ld x1 r1))⟩]

/-- The one store is through the whole buffer's rectangle, so it covers the buffer. -/
theorem cover0_4 (p0 : Vec F S256x1 .f32) (y : S256x1.Idx) :
    ∃ pc ∈ ([⟨r2, p0⟩] : List (View.Piece (Elt F) S256x1 .f32)), y ∈ pc.1.set :=
  ⟨_, List.mem_singleton_self _, View.mem_set_unit_zero (S := S256x1) zeros2 inb_S256x1_S256x1_0_0 y⟩

/-- The canon of one whole-buffer store over whole-buffer loads is the payload at the buffers themselves. -/
theorem out0_4_eq (x0 : Vec F S256x1024 .bf16) (x1 : Vec F S4096x1024 .bf16) (x2 : Vec F S256x1 .i32) (x3 : Vec F S1x4096 .i32) :
    out0_4 x0 x1 x2 x3 = k0_pay1 (k0_pay2 x0 x1) (k0_pay6 x0 x1 x2 x3) (k0_pay7 x0 x1 x2 x3) (k0_pay8 x0 x1) := by
  unfold out0_4
  rw [View.canon_unit_zero (S := S256x1) zeros2]
  simp only [View.ld_unit_zero (S := S256x1024) zeros2, View.ld_unit_zero (S := S4096x1024) zeros2,
    View.ld_unit_zero (S := S256x1) zeros2, View.ld_unit_zero (S := S1x4096) zeros2]

/-! ## The body's triple -/

set_option maxHeartbeats 1000000 in
/-- The kernel body on whole staging memrefs, the inputs' at contents `xW` and the output's at anything, runs to the
    continuation holding the inputs' as they were and the output's at `out0_4` of the inputs': the printed functions
    are their skeletons, which the symbolic executor runs through the part call; the load of the output buffer
    reads a value nothing uses, and the one store covers the buffer. -/
theorem sound_kernel (c : Dev nD) (E : Set ℕ) (i : grid0.Coords) (arg1 : Memref sig .tc .vmem S256x1024 .bf16) (harg1 : arg1.IsWhole) (arg2 : Memref sig .tc .vmem S4096x1024 .bf16) (harg2 : arg2.IsWhole) (arg3 : Memref sig .tc .vmem S256x1 .i32) (harg3 : arg3.IsWhole) (arg4 : Memref sig .tc .vmem S1x4096 .i32) (harg4 : arg4.IsWhole) (arg5 : Memref sig .tc .vmem S256x1 .f32) (harg5 : arg5.IsWhole)
    (x0 : Vec F S256x1024 .bf16) (x1 : Vec F S4096x1024 .bf16) (x2 : Vec F S256x1 .i32) (x3 : Vec F S1x4096 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

end Cert.Kernel.Body

end
-- ==== Proof.FrameK.lean ====
/-
  The frame run of the kernel's @main, and what it leaves in the result buffers.

  @main is three host operations (a change of float format of the feature array, two reshapes of the labels), ONE
  kernel region over a grid of 16 points, and four host operations (a sum of the region's 4096x1 result and a
  division by 4096). The region has five windows: a 256-row block of the features, the WHOLE feature array again
  (a second window on the same array, fetched once), a 256x1 block of the labels, the whole 1x4096 labels (fetched
  once), and the 256x1 output block, written back at every point.
  Because two input windows read ONE array, the array's full share is dealt between them: its left half to the
  block window, its right half to the whole-array window; every other array is held at the full share.
-/
import proofs.«106479_j75033078661970_1_alg».proof.Proof.Gen.Kernel.Launch
import proofs.«106479_j75033078661970_1_alg».proof.Proof.Gen.Kernel.Skeleton
import proofs.«106479_j75033078661970_1_alg».proof.Proof.Gen.Kernel.Points
import proofs.«106479_j75033078661970_1_alg».proof.Proof.BodyK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore's buffer contents when the region is entered: after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (an unfetched window's
    block index has not moved): one statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body each input's buffer at its block
    and the output's at the body's function of the four input blocks; the class's invariant (the scoped rest and the
    generator register, untouched); nothing owed; the shared feature array's share dealt in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.RunK.lean ====
/-
  The run of the kernel's @main: the launch of its one region between the host operations before and after
  it, for a kernel two of whose input windows read ONE array.

  The launch follows the library's frame run around a region step by step, with two steps of its own. At the entry
  the buffers behind the windows' arrays are four (the feature array serves two windows): the feature array's full
  share is split in two halves, one per window that reads it. At the exit the four later host operations read only
  the region's result and write four buffers no window stages, so they run holding those five buffers alone; the
  input arrays, held at their shares, pass by untouched.
-/
import proofs.«106479_j75033078661970_1_alg».proof.Proof.FrameK

set_option maxRecDepth 16384

noncomputable section

namespace Cert.Kernel.Fr

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- The buffer contents at the region's exit: the result array at what the write-backs left, every other buffer as
    the region found it. -/
def W1 (c : Dev nD) : Valuation τ sig (Elt F) :=
  Function.update (V0 m c) (Proc.devRef .tc main_v3) ((dats m 0 c).arrAt 4 cfg0.N)

/-- The buffer contents at the end: after the four later host operations. -/
def Vend (c : Dev nD) (b : Ref sig .tc) : Buf (Elt F) ((c : Thread nD τ).loc b) :=
  StableHlo.after hostOps1 (W1 m c) (Proc.devRef .tc b)

/-- Before any write-back an array holds what the region found. -/
theorem arrAt0 (c : Dev nD) (w : Fin cfg0.W) : (dats m 0 c).arrAt w 0 = V m c (Pipeline.arrRef spec0 w) :=
  (show (dats m 0 c).arrAt w 0 = (dats m 0 c).A w from rfl).trans (A_eq m c w)

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- ENTRY: the four buffers behind the five windows' arrays, each whole at the full share, make the windows' arrays at
    their shares: the feature array's share split in halves between its two windows. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [show (Finset.univ.image (Pipeline.arrRef spec0)) = [main_v0, main_v1, main_v2, main_v3].toFinset from by decide,
    bigSep_eq_bigSepL _ (by decide)]
  simp only [bigSepL_cons_cons, bigSepL_singleton]
  rw [arrAt0 m c 0, arrAt0 m c 1, arrAt0 m c 2, arrAt0 m c 3, arrAt0 m c 4, share0, share1, share2, share3, share4]
  simp only [View.set_whole]
  show iprop(((c.tc : Thread nD τ).loc main_v0 ↦{fullShare} V m c main_v0) ∗ ((c.tc : Thread nD τ).loc main_v1 ↦{fullShare} V m c main_v1)
      ∗ ((c.tc : Thread nD τ).loc main_v2 ↦{fullShare} V m c main_v2) ∗ ((c.tc : Thread nD τ).loc main_v3 ↦{fullShare} V m c main_v3)) ⊢ _
  iintro ⟨H0, H1, H2, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  iexact H3

/-! ## The exit: the four later host operations -/

/-- The result array and the four buffers the later host operations write: all they touch. -/
def tailL : List (Ref sig .tc) := [main_v3, main_cst, main_v4, main_cst_0, main_v5]
def tailS : Finset (DevRef τ sig) := (tailL.map (Proc.devRef (τ := τ) .tc)).toFinset

theorem tailL_nodup : (tailL.map (Proc.devRef (τ := τ) .tc)).Nodup :=
  List.Nodup.map (Proc.devRef_injective _) (by decide)

/-- Those five buffers held at a valuation, one by one. -/
theorem held_tail (c : Dev nD) (W : Valuation τ sig (Elt F)) :
    (StableHlo.held (c.tc : Thread nD τ) tailS W : sProp 𝕄)
      = iprop((((c.tc : Thread nD τ).loc main_v3) ↦{fullShare} W (Proc.devRef .tc main_v3))
          ∗ (((c.tc : Thread nD τ).loc main_cst) ↦{fullShare} W (Proc.devRef .tc main_cst))
          ∗ (((c.tc : Thread nD τ).loc main_v4) ↦{fullShare} W (Proc.devRef .tc main_v4))
          ∗ (((c.tc : Thread nD τ).loc main_cst_0) ↦{fullShare} W (Proc.devRef .tc main_cst_0))
          ∗ (((c.tc : Thread nD τ).loc main_v5) ↦{fullShare} W (Proc.devRef .tc main_v5))) := by
  unfold StableHlo.held tailS
  rw [bigSep_eq_bigSepL _ tailL_nodup]
  rfl

/-- The later host operations touch those five buffers only, -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl <;>
    simp only [StableHlo.nullary_bufs, StableHlo.binary_bufs, tailS, tailL, List.map_cons, List.map_nil, List.toFinset_cons,
      List.toFinset_nil] <;> intro b hb <;> simp only [Finset.mem_insert, Finset.mem_singleton] at hb ⊢ <;> aesop
/-- and allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- At the exit the result array holds what the write-backs left, -/
theorem W1_v3 (c : Dev nD) : W1 m c (Proc.devRef .tc main_v3) = (dats m 0 c).arrAt 4 cfg0.N := by
  unfold W1; exact Function.update_self ..
/-- and every other buffer what the region found. -/
theorem W1_ne (c : Dev nD) (b : Ref sig .tc) (hb : b ≠ main_v3) : W1 m c (Proc.devRef .tc b) = V m c b := by
  unfold W1; exact Function.update_of_ne (StableHlo.devRef_ne_of_ne hb) ..

/-- A buffer none of the four later operations writes ends as it was at the exit. -/
theorem Vend_keep (c : Dev nD) (b : Ref sig .tc) (hb : b ≠ main_cst ∧ b ≠ main_v4 ∧ b ≠ main_cst_0 ∧ b ≠ main_v5) :
    Vend m c b = W1 m c (Proc.devRef .tc b) := by
  obtain ⟨h1, h2, h3, h4⟩ := hb
  unfold Vend
  refine StableHlo.after_of_forall_not_mem (b := Proc.devRef .tc b) _ _ (List.forall_iff_forall_mem.mp ?_)
  simp only [hostOps1, List.Forall, StableHlo.nullary_writes, StableHlo.binary_writes, Finset.mem_singleton]
  exact ⟨StableHlo.devRef_ne_of_ne h1, StableHlo.devRef_ne_of_ne h2, StableHlo.devRef_ne_of_ne h3, StableHlo.devRef_ne_of_ne h4⟩

/-- EXIT: the four later host operations, run holding the result array and the four buffers they write; the input
    arrays at their shares and the two argument arrays pass by. -/
theorem htail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vend m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have key := Pipeline.wp_seqs_then (Ix := Unit) (Name := ℕ) (U := UR sig nD τ) (Lvl := ℕ) (fun q => (cfgs q).toPCfg (Val := Elt F)) defs₀ Variants.none
    c tailS [] [hostOps1] tail_sub tail_fresh (W1 m c) (K := Q')
  rw [held_tail, held_tail] at key
  simp only [List.flatten_cons, List.flatten_nil, List.append_nil, List.map_cons, List.map_nil] at key
  rw [W1_v3, W1_ne m c main_cst (by decide), W1_ne m c main_v4 (by decide), W1_ne m c main_cst_0 (by decide), W1_ne m c main_v5 (by decide)] at key
  rw [show StableHlo.after hostOps1 (W1 m c) (Proc.devRef .tc main_v3) = (dats m 0 c).arrAt 4 cfg0.N from
        (Vend_keep m c main_v3 (by decide)).trans (W1_v3 m c),
    show StableHlo.after hostOps1 (W1 m c) (Proc.devRef .tc main_cst) = Vend m c main_cst from rfl,
    show StableHlo.after hostOps1 (W1 m c) (Proc.devRef .tc main_v4) = Vend m c main_v4 from rfl,
    show StableHlo.after hostOps1 (W1 m c) (Proc.devRef .tc main_cst_0) = Vend m c main_cst_0 from rfl,
    show StableHlo.after hostOps1 (W1 m c) (Proc.devRef .tc main_v5) = Vend m c main_v5 from rfl] at key
  rw [Pipeline.unscopedRestP_none, Pipeline.unscopedRestP_none, unscopedRest0_eq c (V m c), unscopedRest0_eq c (Vend m c),
    Vend_keep m c main_arg0 (by decide), W1_ne m c main_arg0 (by decide), Vend_keep m c main_arg1 (by decide), W1_ne m c main_arg1 (by decide)]
  unfold Dat.arrays
  rw [bigSep_W0, share4]
  simp only [View.set_whole]
  iintro ⟨Hk, Hb, ⟨A0, A1, A2, A3, A4⟩, ⟨Ra0, Ra1, Rcst, Rv4, Rcst0, Rv5⟩⟩
  iapply key $$ [Hb A4 Rcst Rv4 Rcst0 Rv5]
  · isplitl [Hb]; · iexact Hb
    isplitl [A4]; · iexact A4
    isplitl [Rcst]; · iexact Rcst
    isplitl [Rv4]; · iexact Rv4
    isplitl [Rcst0]; · iexact Rcst0
    iexact Rv5
  iintro ⟨Hb, A4, Rcst, Rv4, Rcst0, Rv5⟩
  rw [Pipeline.chain_nil, wp_pure]
  imodintro
  iapply Hk
  isplitl [A0 A1 A2 A3 A4]
  · isplitl [A0]; · iexact A0
    isplitl [A1]; · iexact A1
    isplitl [A2]; · iexact A2
    isplitl [A3]; · iexact A3
    iexact A4
  isplitl [Ra0]; · iexact Ra0
  isplitl [Ra1]; · iexact Ra1
  isplitl [Rcst]; · iexact Rcst
  isplitl [Rv4]; · iexact Rv4
  isplitl [Rcst0]; · iexact Rcst0
  iexact Rv5

set_option backward.isDefEq.respectTransparency.types false in
/-- THE RUN: every weakly fair execution of @main terminates, nothing faulting; at the end every window's array holds
    what the write-backs left, and every other unscoped buffer what the later host operations left. -/
theorem run_main : θ_run defs (onTc (τ := τ) (main (F := F))) ⟨m, fun _ => 0, ρ⟩ (fun r => ∀ c : Dev nD,
    (∀ w : Fin cfg0.W, r.2.mem ((cfg0.win w).arr.view.loc (c.tc : Thread nD τ)) = (dats m 0 c).arrAt w cfg0.N)
    ∧ ∀ b ∈ Pipeline.restRefsP sig Pipeline.Prefetch.none spec0, r.2.mem ((c.tc : Thread nD τ).loc b) = Vend m c b) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m c Q')
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).1, (h c).2.2⟩)

/-! ## What the run leaves: the arguments, and the result -/

/-- None of the three earlier host operations writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor does any of the four later ones: each argument array ends as launched. -/
theorem Vend_main_arg0 (c : Dev nD) : Vend m c main_arg0 = m ((c : Thread nD τ).loc main_arg0) :=
  (Vend_keep m c main_arg0 (by decide)).trans ((W1_ne m c main_arg0 (by decide)).trans (V_main_arg0 m c))
theorem Vend_main_arg1 (c : Dev nD) : Vend m c main_arg1 = m ((c : Thread nD τ).loc main_arg1) :=
  (Vend_keep m c main_arg1 (by decide)).trans ((W1_ne m c main_arg1 (by decide)).trans (V_main_arg1 m c))

/-- The result buffer ends at the sum of the region's result array, divided by 4096. -/
theorem Vend_main_v5 (c : Dev nD) :
    Vend m c main_v5 = Host.divf (Host.reduceAdd ((dats m 0 c).arrAt 4 cfg0.N) (constant S_ .f32 0x00000000#32) reducesTo_S4096x1_S_d0_1 h_S_)
      (constant S_ .f32 0x45800000#32) := by
  unfold Vend
  after_results
  rw [W1_v3]

/-- THE RUN read at the arguments and the result. -/
theorem run_result : θ_run defs (onTc (τ := τ) (main (F := F))) ⟨m, fun _ => 0, ρ⟩ (fun r => ∀ c : Dev nD,
    r.2.mem ((c.tc : Thread nD τ).loc main_v5) = Vend m c main_v5
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c).2 main_v5 (by decide),
      ((h c).2 main_arg0 (by decide)).trans (Vend_main_arg0 m c),
      ((h c).2 main_arg1 (by decide)).trans (Vend_main_arg1 m c)⟩) (run_main m ρ)

/-- THE FRAME: @main runs to the end, nothing faulting, and its argument arrays end unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => (h c).2) (run_result m ρ)

end Cert.Kernel.Fr

end
-- ==== Proof.BodyKI.lean ====
/- The kernel body's triple for the printed program `Cert.KernelIdeal`: run on whole staging memrefs, the body leaves
   the output buffer at a named pure function of the input buffers (`Body.out0_4`), and that function is the
   body's arithmetic applied to the buffers themselves (`Body.out0_4_eq`). Stated at any float instance. -/
import proofs.«106479_j75033078661970_1_alg».proof.Proof.Gen.KernelIdeal.Launch
import proofs.«106479_j75033078661970_1_alg».proof.Proof.Gen.KernelIdeal.Skeleton
import proofs.«106479_j75033078661970_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Every access of the body is through the rectangle of a whole buffer: offset zero, the buffer's own extents. -/

/-- The 256x1024 block of features. -/
abbrev r0 : Rect S256x1024 := Rect.unit (s := S256x1024) ![0, 0] S256x1024.size inb_S256x1024_S256x1024_0_0
/-- The whole 4096x1024 array of features. -/
abbrev r1 : Rect S4096x1024 := Rect.unit (s := S4096x1024) ![0, 0] S4096x1024.size inb_S4096x1024_S4096x1024_0_0
/-- The 256x1 block of labels, and the 256x1 block of per-row losses (one shape, one rectangle). -/
abbrev r2 : Rect S256x1 := Rect.unit (s := S256x1) ![0, 0] S256x1.size inb_S256x1_S256x1_0_0
/-- The whole 1x4096 row of labels. -/
abbrev r3 : Rect S1x4096 := Rect.unit (s := S1x4096) ![0, 0] S1x4096.size inb_S1x4096_S1x4096_0_0

/-- The offsets of all of them are zero. -/
theorem zeros2 : (![0, 0] : Fin 2 → Nat) = fun _ => 0 := funext fun a => by fin_cases a <;> rfl

/-! ## What the body leaves in the output buffer -/

/-- The output buffer after the body, from the input buffers: its one store as a piece over the loads. -/
def out0_4 (x0 : Vec F S256x1024 .bf16) (x1 : Vec F S4096x1024 .bf16) (x2 : Vec F S256x1 .i32) (x3 : Vec F S1x4096 .i32) : Vec F S256x1 .f32 :=
  View.canon [⟨r2, k0_pay1 (k0_pay2 (View.ld x0 r0) (View.ld x1 r1))
    (k0_pay6 (View.ld x0 r0) (View.ld x1 r1) (View.ld x2 r2) (View.ld x3 r3))
    (k0_pay7 (View.ld x0 r0) (View.ld x1 r1) (View.ld x2 r2) (View.ld x3 r3))
    (k0_pay8 (View.ld x0 r0) (View.ld x1 r1))⟩]

/-- The one store is through the whole buffer's rectangle, so it covers the buffer. -/
theorem cover0_4 (p0 : Vec F S256x1 .f32) (y : S256x1.Idx) :
    ∃ pc ∈ ([⟨r2, p0⟩] : List (View.Piece (Elt F) S256x1 .f32)), y ∈ pc.1.set :=
  ⟨_, List.mem_singleton_self _, View.mem_set_unit_zero (S := S256x1) zeros2 inb_S256x1_S256x1_0_0 y⟩

/-- The canon of one whole-buffer store over whole-buffer loads is the payload at the buffers themselves. -/
theorem out0_4_eq (x0 : Vec F S256x1024 .bf16) (x1 : Vec F S4096x1024 .bf16) (x2 : Vec F S256x1 .i32) (x3 : Vec F S1x4096 .i32) :
    out0_4 x0 x1 x2 x3 = k0_pay1 (k0_pay2 x0 x1) (k0_pay6 x0 x1 x2 x3) (k0_pay7 x0 x1 x2 x3) (k0_pay8 x0 x1) := by
  unfold out0_4
  rw [View.canon_unit_zero (S := S256x1) zeros2]
  simp only [View.ld_unit_zero (S := S256x1024) zeros2, View.ld_unit_zero (S := S4096x1024) zeros2,
    View.ld_unit_zero (S := S256x1) zeros2, View.ld_unit_zero (S := S1x4096) zeros2]

/-! ## The body's triple -/

set_option maxHeartbeats 1000000 in
/-- The kernel body on whole staging memrefs, the inputs' at contents `xW` and the output's at anything, runs to the
    continuation holding the inputs' as they were and the output's at `out0_4` of the inputs': the printed functions
    are their skeletons, which the symbolic executor runs through the part call; the load of the output buffer
    reads a value nothing uses, and the one store covers the buffer. -/
theorem sound_kernel (c : Dev nD) (E : Set ℕ) (i : grid0.Coords) (arg1 : Memref sig .tc .vmem S256x1024 .bf16) (harg1 : arg1.IsWhole) (arg2 : Memref sig .tc .vmem S4096x1024 .bf16) (harg2 : arg2.IsWhole) (arg3 : Memref sig .tc .vmem S256x1 .i32) (harg3 : arg3.IsWhole) (arg4 : Memref sig .tc .vmem S1x4096 .i32) (harg4 : arg4.IsWhole) (arg5 : Memref sig .tc .vmem S256x1 .f32) (harg5 : arg5.IsWhole)
    (x0 : Vec F S256x1024 .bf16) (x1 : Vec F S4096x1024 .bf16) (x2 : Vec F S256x1 .i32) (x3 : Vec F S1x4096 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

end Cert.KernelIdeal.Body

end
-- ==== Proof.FrameKI.lean ====
/-
  The frame run of the idealized kernel's @main, and what it leaves in the result buffers.

  @main is three host operations (a change of float format of the feature array, two reshapes of the labels), ONE
  kernel region over a grid of 16 points, and four host operations (a sum of the region's 4096x1 result and a
  division by 4096). The region has five windows: a 256-row block of the features, the WHOLE feature array again
  (a second window on the same array, fetched once), a 256x1 block of the labels, the whole 1x4096 labels (fetched
  once), and the 256x1 output block, written back at every point.
  Because two input windows read ONE array, the array's full share is dealt between them: its left half to the
  block window, its right half to the whole-array window; every other array is held at the full share.
-/
import proofs.«106479_j75033078661970_1_alg».proof.Proof.Gen.KernelIdeal.Launch
import proofs.«106479_j75033078661970_1_alg».proof.Proof.Gen.KernelIdeal.Skeleton
import proofs.«106479_j75033078661970_1_alg».proof.Proof.Gen.KernelIdeal.Points
import proofs.«106479_j75033078661970_1_alg».proof.Proof.BodyKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore's buffer contents when the region is entered: after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later host operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (an unfetched window's
    block index has not moved): one statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body each input's buffer at its block
    and the output's at the body's function of the four input blocks; the class's invariant (the scoped rest and the
    generator register, untouched); nothing owed; the shared feature array's share dealt in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.RunKI.lean ====
/-
  The run of the idealized kernel's @main: the launch of its one region between the host operations before and after
  it, for a kernel two of whose input windows read ONE array.

  The launch follows the library's frame run around a region step by step, with two steps of its own. At the entry
  the buffers behind the windows' arrays are four (the feature array serves two windows): the feature array's full
  share is split in two halves, one per window that reads it. At the exit the four later host operations read only
  the region's result and write four buffers no window stages, so they run holding those five buffers alone; the
  input arrays, held at their shares, pass by untouched.
-/
import proofs.«106479_j75033078661970_1_alg».proof.Proof.FrameKI

set_option maxRecDepth 16384

noncomputable section

namespace Cert.KernelIdeal.Fr

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Classical in
/-- The buffer contents at the region's exit: the result array at what the write-backs left, every other buffer as
    the region found it. -/
def W1 (c : Dev nD) : Valuation τ sig (Elt F) :=
  Function.update (V0 m c) (Proc.devRef .tc main_v3) ((dats m 0 c).arrAt 4 cfg0.N)

/-- The buffer contents at the end: after the four later host operations. -/
def Vend (c : Dev nD) (b : Ref sig .tc) : Buf (Elt F) ((c : Thread nD τ).loc b) :=
  StableHlo.after hostOps1 (W1 m c) (Proc.devRef .tc b)

/-- Before any write-back an array holds what the region found. -/
theorem arrAt0 (c : Dev nD) (w : Fin cfg0.W) : (dats m 0 c).arrAt w 0 = V m c (Pipeline.arrRef spec0 w) :=
  (show (dats m 0 c).arrAt w 0 = (dats m 0 c).A w from rfl).trans (A_eq m c w)

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- ENTRY: the four buffers behind the five windows' arrays, each whole at the full share, make the windows' arrays at
    their shares: the feature array's share split in halves between its two windows. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  rw [show (Finset.univ.image (Pipeline.arrRef spec0)) = [main_v0, main_v1, main_v2, main_v3].toFinset from by decide,
    bigSep_eq_bigSepL _ (by decide)]
  simp only [bigSepL_cons_cons, bigSepL_singleton]
  rw [arrAt0 m c 0, arrAt0 m c 1, arrAt0 m c 2, arrAt0 m c 3, arrAt0 m c 4, share0, share1, share2, share3, share4]
  simp only [View.set_whole]
  show iprop(((c.tc : Thread nD τ).loc main_v0 ↦{fullShare} V m c main_v0) ∗ ((c.tc : Thread nD τ).loc main_v1 ↦{fullShare} V m c main_v1)
      ∗ ((c.tc : Thread nD τ).loc main_v2 ↦{fullShare} V m c main_v2) ∗ ((c.tc : Thread nD τ).loc main_v3 ↦{fullShare} V m c main_v3)) ⊢ _
  iintro ⟨H0, H1, H2, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  iexact H3

/-! ## The exit: the four later host operations -/

/-- The result array and the four buffers the later host operations write: all they touch. -/
def tailL : List (Ref sig .tc) := [main_v3, main_cst, main_v4, main_cst_0, main_v5]
def tailS : Finset (DevRef τ sig) := (tailL.map (Proc.devRef (τ := τ) .tc)).toFinset

theorem tailL_nodup : (tailL.map (Proc.devRef (τ := τ) .tc)).Nodup :=
  List.Nodup.map (Proc.devRef_injective _) (by decide)

/-- Those five buffers held at a valuation, one by one. -/
theorem held_tail (c : Dev nD) (W : Valuation τ sig (Elt F)) :
    (StableHlo.held (c.tc : Thread nD τ) tailS W : sProp 𝕄)
      = iprop((((c.tc : Thread nD τ).loc main_v3) ↦{fullShare} W (Proc.devRef .tc main_v3))
          ∗ (((c.tc : Thread nD τ).loc main_cst) ↦{fullShare} W (Proc.devRef .tc main_cst))
          ∗ (((c.tc : Thread nD τ).loc main_v4) ↦{fullShare} W (Proc.devRef .tc main_v4))
          ∗ (((c.tc : Thread nD τ).loc main_cst_0) ↦{fullShare} W (Proc.devRef .tc main_cst_0))
          ∗ (((c.tc : Thread nD τ).loc main_v5) ↦{fullShare} W (Proc.devRef .tc main_v5))) := by
  unfold StableHlo.held tailS
  rw [bigSep_eq_bigSepL _ tailL_nodup]
  rfl

/-- The later host operations touch those five buffers only, -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl | rfl | rfl <;>
    simp only [StableHlo.nullary_bufs, StableHlo.binary_bufs, tailS, tailL, List.map_cons, List.map_nil, List.toFinset_cons,
      List.toFinset_nil] <;> intro b hb <;> simp only [Finset.mem_insert, Finset.mem_singleton] at hb ⊢ <;> aesop
/-- and allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- At the exit the result array holds what the write-backs left, -/
theorem W1_v3 (c : Dev nD) : W1 m c (Proc.devRef .tc main_v3) = (dats m 0 c).arrAt 4 cfg0.N := by
  unfold W1; exact Function.update_self ..
/-- and every other buffer what the region found. -/
theorem W1_ne (c : Dev nD) (b : Ref sig .tc) (hb : b ≠ main_v3) : W1 m c (Proc.devRef .tc b) = V m c b := by
  unfold W1; exact Function.update_of_ne (StableHlo.devRef_ne_of_ne hb) ..

/-- A buffer none of the four later operations writes ends as it was at the exit. -/
theorem Vend_keep (c : Dev nD) (b : Ref sig .tc) (hb : b ≠ main_cst ∧ b ≠ main_v4 ∧ b ≠ main_cst_0 ∧ b ≠ main_v5) :
    Vend m c b = W1 m c (Proc.devRef .tc b) := by
  obtain ⟨h1, h2, h3, h4⟩ := hb
  unfold Vend
  refine StableHlo.after_of_forall_not_mem (b := Proc.devRef .tc b) _ _ (List.forall_iff_forall_mem.mp ?_)
  simp only [hostOps1, List.Forall, StableHlo.nullary_writes, StableHlo.binary_writes, Finset.mem_singleton]
  exact ⟨StableHlo.devRef_ne_of_ne h1, StableHlo.devRef_ne_of_ne h2, StableHlo.devRef_ne_of_ne h3, StableHlo.devRef_ne_of_ne h4⟩

/-- EXIT: the four later host operations, run holding the result array and the four buffers they write; the input
    arrays at their shares and the two argument arrays pass by. -/
theorem htail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vend m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have key := Pipeline.wp_seqs_then (Ix := Unit) (Name := ℕ) (U := UR sig nD τ) (Lvl := ℕ) (fun q => (cfgs q).toPCfg (Val := Elt F)) defs₀ Variants.none
    c tailS [] [hostOps1] tail_sub tail_fresh (W1 m c) (K := Q')
  rw [held_tail, held_tail] at key
  simp only [List.flatten_cons, List.flatten_nil, List.append_nil, List.map_cons, List.map_nil] at key
  rw [W1_v3, W1_ne m c main_cst (by decide), W1_ne m c main_v4 (by decide), W1_ne m c main_cst_0 (by decide), W1_ne m c main_v5 (by decide)] at key
  rw [show StableHlo.after hostOps1 (W1 m c) (Proc.devRef .tc main_v3) = (dats m 0 c).arrAt 4 cfg0.N from
        (Vend_keep m c main_v3 (by decide)).trans (W1_v3 m c),
    show StableHlo.after hostOps1 (W1 m c) (Proc.devRef .tc main_cst) = Vend m c main_cst from rfl,
    show StableHlo.after hostOps1 (W1 m c) (Proc.devRef .tc main_v4) = Vend m c main_v4 from rfl,
    show StableHlo.after hostOps1 (W1 m c) (Proc.devRef .tc main_cst_0) = Vend m c main_cst_0 from rfl,
    show StableHlo.after hostOps1 (W1 m c) (Proc.devRef .tc main_v5) = Vend m c main_v5 from rfl] at key
  rw [Pipeline.unscopedRestP_none, Pipeline.unscopedRestP_none, unscopedRest0_eq c (V m c), unscopedRest0_eq c (Vend m c),
    Vend_keep m c main_arg0 (by decide), W1_ne m c main_arg0 (by decide), Vend_keep m c main_arg1 (by decide), W1_ne m c main_arg1 (by decide)]
  unfold Dat.arrays
  rw [bigSep_W0, share4]
  simp only [View.set_whole]
  iintro ⟨Hk, Hb, ⟨A0, A1, A2, A3, A4⟩, ⟨Ra0, Ra1, Rcst, Rv4, Rcst0, Rv5⟩⟩
  iapply key $$ [Hb A4 Rcst Rv4 Rcst0 Rv5]
  · isplitl [Hb]; · iexact Hb
    isplitl [A4]; · iexact A4
    isplitl [Rcst]; · iexact Rcst
    isplitl [Rv4]; · iexact Rv4
    isplitl [Rcst0]; · iexact Rcst0
    iexact Rv5
  iintro ⟨Hb, A4, Rcst, Rv4, Rcst0, Rv5⟩
  rw [Pipeline.chain_nil, wp_pure]
  imodintro
  iapply Hk
  isplitl [A0 A1 A2 A3 A4]
  · isplitl [A0]; · iexact A0
    isplitl [A1]; · iexact A1
    isplitl [A2]; · iexact A2
    isplitl [A3]; · iexact A3
    iexact A4
  isplitl [Ra0]; · iexact Ra0
  isplitl [Ra1]; · iexact Ra1
  isplitl [Rcst]; · iexact Rcst
  isplitl [Rv4]; · iexact Rv4
  isplitl [Rcst0]; · iexact Rcst0
  iexact Rv5

set_option backward.isDefEq.respectTransparency.types false in
/-- THE RUN: every weakly fair execution of @main terminates, nothing faulting; at the end every window's array holds
    what the write-backs left, and every other unscoped buffer what the later host operations left. -/
theorem run_main : θ_run defs (onTc (τ := τ) (main (F := F))) ⟨m, fun _ => 0, ρ⟩ (fun r => ∀ c : Dev nD,
    (∀ w : Fin cfg0.W, r.2.mem ((cfg0.win w).arr.view.loc (c.tc : Thread nD τ)) = (dats m 0 c).arrAt w cfg0.N)
    ∧ ∀ b ∈ Pipeline.restRefsP sig Pipeline.Prefetch.none spec0, r.2.mem ((c.tc : Thread nD τ).loc b) = Vend m c b) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m c Q')
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).1, (h c).2.2⟩)

/-! ## What the run leaves: the arguments, and the result -/

/-- None of the three earlier host operations writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor does any of the four later ones: each argument array ends as launched. -/
theorem Vend_main_arg0 (c : Dev nD) : Vend m c main_arg0 = m ((c : Thread nD τ).loc main_arg0) :=
  (Vend_keep m c main_arg0 (by decide)).trans ((W1_ne m c main_arg0 (by decide)).trans (V_main_arg0 m c))
theorem Vend_main_arg1 (c : Dev nD) : Vend m c main_arg1 = m ((c : Thread nD τ).loc main_arg1) :=
  (Vend_keep m c main_arg1 (by decide)).trans ((W1_ne m c main_arg1 (by decide)).trans (V_main_arg1 m c))

/-- The result buffer ends at the sum of the region's result array, divided by 4096. -/
theorem Vend_main_v5 (c : Dev nD) :
    Vend m c main_v5 = Host.divf (Host.reduceAdd ((dats m 0 c).arrAt 4 cfg0.N) (constant S_ .f32 0x00000000#32) reducesTo_S4096x1_S_d0_1 h_S_)
      (constant S_ .f32 0x45800000#32) := by
  unfold Vend
  after_results
  rw [W1_v3]

/-- THE RUN read at the arguments and the result. -/
theorem run_result : θ_run defs (onTc (τ := τ) (main (F := F))) ⟨m, fun _ => 0, ρ⟩ (fun r => ∀ c : Dev nD,
    r.2.mem ((c.tc : Thread nD τ).loc main_v5) = Vend m c main_v5
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c).2 main_v5 (by decide),
      ((h c).2 main_arg0 (by decide)).trans (Vend_main_arg0 m c),
      ((h c).2 main_arg1 (by decide)).trans (Vend_main_arg1 m c)⟩) (run_main m ρ)

/-- THE FRAME: @main runs to the end, nothing faulting, and its argument arrays end unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => (h c).2) (run_result m ρ)

end Cert.KernelIdeal.Fr

end
-- ==== Proof.ArrayEntry.lean ====
/-
  What the region finds in its three input arrays, as functions of @main's two arguments.

  Before the region the f32 features are changed to bf16 (the identity at the ideal instance), and the 4096 labels are
  reshaped to a 4096x1 column and to a 1x4096 row (a reshape keeps the row-major position, so entry `r` of the labels
  is entry `(r, 0)` of the column and `(0, r)` of the row).
-/
import proofs.«106479_j75033078661970_1_alg».proof.Proof.FrameKI
import Idealize.ShloMosaic.Lib.Pipeline.Value
import Idealize.ShloMosaic.Lib.ValueIdx
import Idealize.ShloMosaic.Lib.ValueLayout
import Idealize.ShloMosaic.Lib.StableHlo.Run
set_option maxRecDepth 16384

noncomputable section

namespace Cert.KernelIdeal.Arr

open Cert.KernelIdeal Cert.KernelIdeal.Gen Cert.KernelIdeal.Body Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## What the region finds in its input arrays

Three host operations run before the region: the f32 features are changed to bf16, and the 4096 labels are
reshaped once to a column and once to a row. -/

/-- The feature array the region reads is the f32 argument changed to bf16. -/
theorem V_feat (c : Dev nD) :
    (V m c main_v0 : S4096x1024.Idx → Elt F .bf16)
      = truncf .bf16 (m ((c : Thread nD τ).loc main_arg0) : S4096x1024.Idx → Elt F .f32) bitsLt_bf16_f32 := by
  show StableHlo.after hostOps0 (fun b => m (c, b)) (Proc.devRef .tc main_v0) = _
  after_results

/-- The label column the region reads is the label argument reshaped to 4096x1. -/
theorem V_labelCol (c : Dev nD) :
    (V m c main_v1 : S4096x1.Idx → Elt F .i32)
      = shapeCast S4096x1 (m ((c : Thread nD τ).loc main_arg1) : S4096.Idx → Elt F .i32) shapeCasts_S4096_S4096x1 := by
  show StableHlo.after hostOps0 (fun b => m (c, b)) (Proc.devRef .tc main_v1) = _
  after_results
  rfl

/-- The label row the region reads is the label argument reshaped to 1x4096. -/
theorem V_labelRow (c : Dev nD) :
    (V m c main_v2 : S1x4096.Idx → Elt F .i32)
      = shapeCast S1x4096 (m ((c : Thread nD τ).loc main_arg1) : S4096.Idx → Elt F .i32) shapeCasts_S4096_S1x4096 := by
  show StableHlo.after hostOps0 (fun b => m (c, b)) (Proc.devRef .tc main_v2) = _
  after_results
  rfl

/-! ## The same at an index

A reshape keeps the row-major position: entry `r` of the 4096 labels is entry `(r, 0)` of the column and entry
`(0, r)` of the row. At the ideal instance a change of float format is the identity. -/

/-- A `[4096]` array cast to `[4096, 1]` reads, at `(r, 0)`, the operand at `r`. -/
theorem column_apply {α : Type} (x : S4096.Idx → α) (h : S4096.ShapeCasts S4096x1) (r : Fin 4096) :
    shapeCast S4096x1 x h (ix2 r (0 : Fin 1)) = x (ix1 r) :=
  shapeCast_apply x h _ _ (by
    rw [Shape.rowMajor_val_two, Shape.rowMajor_val_one]
    show r.val = r.val * 1 + 0
    omega)

/-- The label column at row `r` is label `r`. -/
theorem V_labelCol_at (c : Dev nD) (r : Fin 4096) :
    (V m c main_v1 : S4096x1.Idx → Elt F .i32) (ix2 r (0 : Fin 1))
      = (m ((c : Thread nD τ).loc main_arg1) : S4096.Idx → Elt F .i32) (ix1 r) := by
  rw [V_labelCol]
  exact column_apply _ _ r

/-- The label row at column `q` is label `q`. -/
theorem V_labelRow_at (c : Dev nD) (q : Fin 4096) :
    (V m c main_v2 : S1x4096.Idx → Elt F .i32) (ix2 (0 : Fin 1) q)
      = (m ((c : Thread nD τ).loc main_arg1) : S4096.Idx → Elt F .i32) (ix1 q) := by
  rw [V_labelRow]
  exact shapeCast_a_1a_apply _ _ 0 q

/-- At the ideal instance the feature array the region reads is the feature argument, entry by entry. -/
theorem V_feat_at (m : (ℓ : Loc nD τ sig) → Buf (Elt Ideal) ℓ) (c : Dev nD) (r : Fin 4096) (k : Fin 1024) :
    (V m c main_v0 : S4096x1024.Idx → EReal) (ix2 r k)
      = (m ((c : Thread nD τ).loc main_arg0) : S4096x1024.Idx → EReal) (ix2 r k) := by
  rw [V_feat]
  rfl

end Cert.KernelIdeal.Arr

end
-- ==== Proof.ArrayBlocks.lean ====
/-
  The four input blocks of the kernel at a grid point, element by element, as entries of the arrays the region finds.

  Point `t` of the 16 reads rows `256 t … 256 t + 255` of the 4096x1024 feature array and of the 4096x1 label column,
  and the whole feature array and the whole 1x4096 label row. An element of a block sits in its array at the block's
  index times the block's extent plus the coordinate inside the block, axis by axis. Stated at any float instance.
-/
import proofs.«106479_j75033078661970_1_alg».proof.Proof.FrameKI
import Idealize.ShloMosaic.Lib.Pipeline.Value
import Idealize.ShloMosaic.Lib.ValueIdx
set_option maxRecDepth 16384

noncomputable section

namespace Cert.KernelIdeal.Arr

open Cert.KernelIdeal Cert.KernelIdeal.Gen Cert.KernelIdeal.Body Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## The windows' block indices

At point `t` the two row-block input windows are at row block `t`; the two whole-array windows stay at block 0.
Decided once over the 16 points. -/

theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-! ## Each input block, element by element

A block's coordinate in its array is the block index times the block's extent plus the coordinate inside the block. -/

/-- The feature block at point `t` is rows `256 t … 256 t + 255` of the feature array as the region finds it. -/
theorem featBlock_at (c : Dev nD) (t : Fin cfg0.N) (x : S256x1024.Idx) (i : S4096x1024.Idx)
    (h0 : (i 0).val = 256 * t.val + (x 0).val) (h1 : (i 1).val = (x 1).val) :
    (iblk m c 0 t : Vec F S256x1024 .bf16) x = (V m c main_v0 : S4096x1024.Idx → Elt F .bf16) i := by
  obtain ⟨e0, e1, -⟩ := blockIndex t
  unfold iblk
  rw [View.read_apply]
  show V m c main_v0 _ = V m c main_v0 i
  congr 1
  funext a
  apply Fin.ext
  match a with
  | ⟨0, _⟩ => show win0_0.index t 0 * 256 + 1 * (x 0).val = (i 0).val; rw [e0, h0]; omega
  | ⟨1, _⟩ => show win0_0.index t 1 * 1024 + 1 * (x 1).val = (i 1).val; rw [e1, h1]; omega

/-- The whole-array feature window's block is the feature array, at every point. -/
theorem featAll_at (c : Dev nD) (t : Fin cfg0.N) (x : S4096x1024.Idx) :
    (iblk m c 1 t : Vec F S4096x1024 .bf16) x = (V m c main_v0 : S4096x1024.Idx → Elt F .bf16) x := by
  obtain ⟨-, -, e0, e1, -⟩ := blockIndex t
  unfold iblk
  rw [View.read_apply]
  show V m c main_v0 _ = V m c main_v0 x
  congr 1
  funext a
  apply Fin.ext
  match a with
  | ⟨0, _⟩ => show win0_1.index t 0 * 4096 + 1 * (x 0).val = (x 0).val; rw [e0]; omega
  | ⟨1, _⟩ => show win0_1.index t 1 * 1024 + 1 * (x 1).val = (x 1).val; rw [e1]; omega

/-- The label block at point `t` is rows `256 t … 256 t + 255` of the label column. -/
theorem labelBlock_at (c : Dev nD) (t : Fin cfg0.N) (x : S256x1.Idx) (i : S4096x1.Idx)
    (h0 : (i 0).val = 256 * t.val + (x 0).val) (h1 : (i 1).val = (x 1).val) :
    (iblk m c 2 t : Vec F S256x1 .i32) x = (V m c main_v1 : S4096x1.Idx → Elt F .i32) i := by
  obtain ⟨-, -, -, -, e0, e1, -⟩ := blockIndex t
  unfold iblk
  rw [View.read_apply]
  show V m c main_v1 _ = V m c main_v1 i
  congr 1
  funext a
  apply Fin.ext
  match a with
  | ⟨0, _⟩ => show win0_2.index t 0 * 256 + 1 * (x 0).val = (i 0).val; rw [e0, h0]; omega
  | ⟨1, _⟩ => show win0_2.index t 1 * 1 + 1 * (x 1).val = (i 1).val; rw [e1, h1]; omega

/-- The whole label row's block is the label row, at every point. -/
theorem labelAll_at (c : Dev nD) (t : Fin cfg0.N) (x : S1x4096.Idx) :
    (iblk m c 3 t : Vec F S1x4096 .i32) x = (V m c main_v2 : S1x4096.Idx → Elt F .i32) x := by
  obtain ⟨-, -, -, -, -, -, e0, e1⟩ := blockIndex t
  unfold iblk
  rw [View.read_apply]
  show V m c main_v2 _ = V m c main_v2 x
  congr 1
  funext a
  apply Fin.ext
  match a with
  | ⟨0, _⟩ => show win0_3.index t 0 * 1 + 1 * (x 0).val = (x 0).val; rw [e0]; omega
  | ⟨1, _⟩ => show win0_3.index t 1 * 4096 + 1 * (x 1).val = (x 1).val; rw [e1]; omega

/-! ## The same over explicit coordinates -/

/-- Row `p` of the feature block at point `t` is row `256 t + p` of the feature array. -/
theorem featBlock_ix (c : Dev nD) (t : Fin cfg0.N) (p : Fin 256) (k : Fin 1024) (hr : 256 * t.val + p.val < 4096) :
    (iblk m c 0 t : Vec F S256x1024 .bf16) (ix2 p k)
      = (V m c main_v0 : S4096x1024.Idx → Elt F .bf16) (ix2 (⟨256 * t.val + p.val, hr⟩ : Fin 4096) k) :=
  featBlock_at m c t (ix2 p k) (ix2 (⟨256 * t.val + p.val, hr⟩ : Fin 4096) k) rfl rfl

/-- The whole-array feature window at `(r, k)`. -/
theorem featAll_ix (c : Dev nD) (t : Fin cfg0.N) (r : Fin 4096) (k : Fin 1024) :
    (iblk m c 1 t : Vec F S4096x1024 .bf16) (ix2 r k) = (V m c main_v0 : S4096x1024.Idx → Elt F .bf16) (ix2 r k) :=
  featAll_at m c t (ix2 r k)

/-- Row `p` of the label block at point `t` is row `256 t + p` of the label column. -/
theorem labelBlock_ix (c : Dev nD) (t : Fin cfg0.N) (p : Fin 256) (hr : 256 * t.val + p.val < 4096) :
    (iblk m c 2 t : Vec F S256x1 .i32) (ix2 p (0 : Fin 1))
      = (V m c main_v1 : S4096x1.Idx → Elt F .i32) (ix2 (⟨256 * t.val + p.val, hr⟩ : Fin 4096) (0 : Fin 1)) :=
  labelBlock_at m c t (ix2 p 0) (ix2 (⟨256 * t.val + p.val, hr⟩ : Fin 4096) 0) rfl rfl

/-- The whole label row at column `q`. -/
theorem labelAll_ix (c : Dev nD) (t : Fin cfg0.N) (q : Fin 4096) :
    (iblk m c 3 t : Vec F S1x4096 .i32) (ix2 (0 : Fin 1) q) = (V m c main_v2 : S1x4096.Idx → Elt F .i32) (ix2 (0 : Fin 1) q) :=
  labelAll_at m c t (ix2 0 q)

/-- Every point's row block lies inside the 4096 rows. -/
theorem row_lt (t : Fin cfg0.N) (p : Fin 256) : 256 * t.val + p.val < 4096 := by
  have ht : t.val < 16 := lt_of_lt_of_eq t.isLt (N_0 : cfg0.N = 16)
  have := p.isLt; omega

end Cert.KernelIdeal.Arr

end
-- ==== Proof.ArrayOut.lean ====
/-
  The kernel's 4096x1 output array after the region's last point, as ONE function of the input blocks.

  The output window is at row block `t` at point `t` and is written back at every point; the 16 blocks of 256 rows tile
  the 4096 rows. So row `r` of the array is row `r % 256` of the block the body leaves at point `r / 256`, and that
  block is the body's arithmetic applied to the four input blocks of that point. Stated at any float instance.
-/
import proofs.«106479_j75033078661970_1_alg».proof.Proof.FrameKI
import Idealize.ShloMosaic.Lib.Pipeline.Value
import Idealize.ShloMosaic.Lib.ValueIdx
set_option maxRecDepth 16384

noncomputable section

namespace Cert.KernelIdeal.Arr

open Cert.KernelIdeal Cert.KernelIdeal.Gen Cert.KernelIdeal.Body Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## The output array as one function of the input blocks

The output window is at row block `t` at point `t`, and is written back at every point; the 16 row blocks of 256
rows tile the 4096 rows. So row `r` of the output array is row `r % 256` of what the body left at point `r / 256`. -/

/-- The output window's block index at point `t`: row block `t`, the one column block. Decided over the 16 points. -/
theorem outIndex : ∀ t : Fin cfg0.N, win0_4.index t (0 : Fin 2) = t.val ∧ win0_4.index t (1 : Fin 2) = 0 :=
  (by decide +kernel : ∀ t : Fin grid0.N, _)

/-- What the body leaves in the 256x1 output block at point `t`: its function of the four input blocks there. -/
def lossBlock (c : Dev nD) (t : Fin cfg0.N) : Vec F S256x1 .f32 :=
  out0_4 (iblk m c 0 t) (iblk m c 1 t) (iblk m c 2 t) (iblk m c 3 t)

theorem lossBlock_eq (c : Dev nD) (t : Fin cfg0.N) :
    lossBlock m c t = out0_4 (iblk m c 0 t) (iblk m c 1 t) (iblk m c 2 t) (iblk m c 3 t) := rfl

/-- The block is the body's arithmetic applied to the four input blocks themselves. -/
theorem lossBlock_pay (c : Dev nD) (t : Fin cfg0.N) :
    lossBlock m c t = k0_pay1 (k0_pay2 (iblk m c 0 t) (iblk m c 1 t))
      (k0_pay6 (iblk m c 0 t) (iblk m c 1 t) (iblk m c 2 t) (iblk m c 3 t))
      (k0_pay7 (iblk m c 0 t) (iblk m c 1 t) (iblk m c 2 t) (iblk m c 3 t))
      (k0_pay8 (iblk m c 0 t) (iblk m c 1 t)) :=
  out0_4_eq _ _ _ _

/-- The point whose row block holds row `i 0`. -/
def rowPoint (i : S4096x1.Idx) : Fin cfg0.N :=
  ⟨(i 0).val / 256, by rw [show cfg0.N = 16 from N_0]; have := idx2_lt0 i; omega⟩

/-- The row's place inside that block. -/
def rowIn (i : S4096x1.Idx) : Fin 256 := ⟨(i 0).val % 256, Nat.mod_lt _ (by decide)⟩

/-- THE OUTPUT ARRAY: row `r` is row `r % 256` of the block the body leaves at point `r / 256`. -/
def G (c : Dev nD) : S4096x1.Idx → Elt F .f32 :=
  fun i => lossBlock m c (rowPoint i) (ix2 (rowIn i) (0 : Fin 1))

/-- `G` at row `256 t + p` is row `p` of point `t`'s block. -/
theorem G_of_row (c : Dev nD) (t : Fin cfg0.N) (j : S256x1.Idx) (i : S4096x1.Idx)
    (h0 : (i 0).val = 256 * t.val + (j 0).val) : G m c i = lossBlock m c t j := by
  have hj := idx2_lt0 j
  have ht : rowPoint i = t := Fin.ext (by show (i 0).val / 256 = t.val; omega)
  have hp : ix2 (rowIn i) (0 : Fin 1) = j := by
    funext a
    match a with
    | ⟨0, _⟩ => exact Fin.ext (by show (i 0).val % 256 = (j 0).val; omega)
    | ⟨1, _⟩ => exact Fin.ext (by have := idx2_lt1 j; show 0 = (j 1).val; omega)
  show lossBlock m c (rowPoint i) (ix2 (rowIn i) (0 : Fin 1)) = _
  rw [ht, hp]

/-- WHAT POINT `t` WRITES BACK is block `t` of `G`. -/
theorem flushed_eq (c : Dev nD) (t : Fin cfg0.N) :
    (dats m 0 c).flushed 4 t = ((cfg0.win 4).blk t).view.read (Elt F) (G m c) := by
  show (cfg0.win 4).cut (grid0.coords t) ((dats m 0 c).after 4 t) = _
  rw [after0_4]
  obtain ⟨e0, e1⟩ := outIndex t
  funext j
  rw [View.read_apply]
  show lossBlock m c t j = G m c (((cfg0.win 4).blk t).view.emb j)
  refine (G_of_row m c t j _ ?_).symm
  show win0_4.index t 0 * 256 + 1 * (j 0).val = 256 * t.val + (j 0).val
  rw [e0]; omega

/-- An index of the output array is in point `t`'s block iff each coordinate is in the block's range on its axis. -/
theorem mem_outBlock (t : Fin cfg0.N) (i : S4096x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v3).slice (win0_4.rect t)).set ↔ _
  rw [View.set_slice_whole, Rect.mem_set_unit]
  exact Iff.rfl

/-- Every row lies in the block of the point `r / 256`, which writes it back. -/
theorem outBlocks_cover (i : S4096x1.Idx) :
    ∃ t : Fin cfg0.N, (cfg0.win 4).flush t = true ∧ i ∈ ((cfg0.win 4).blk t).view.set := by
  refine ⟨rowPoint i, flush0_4 _, ?_⟩
  rw [mem_outBlock]
  obtain ⟨e0, e1⟩ := outIndex (rowPoint i)
  have h0 := idx2_lt0 i
  have h1 := idx2_lt1 i
  intro a
  match a with
  | ⟨0, _⟩ =>
    show win0_4.index (rowPoint i) 0 * 256 ≤ (i 0).val ∧ (i 0).val < win0_4.index (rowPoint i) 0 * 256 + 256
    rw [e0]
    show (i 0).val / 256 * 256 ≤ (i 0).val ∧ (i 0).val < (i 0).val / 256 * 256 + 256
    omega
  | ⟨1, _⟩ =>
    show win0_4.index (rowPoint i) 1 * 1 ≤ (i 1).val ∧ (i 1).val < win0_4.index (rowPoint i) 1 * 1 + 1
    rw [e1]; omega

/-- THE OUTPUT ARRAY after the region's last point is `G`. -/
theorem final4 (c : Dev nD) : (dats m 0 c).arrAt 4 cfg0.N = G m c :=
  (dats m 0 c).arrAt_eq_of_cover 4 (G m c) (fun t _ => flushed_eq m c t) outBlocks_cover

/-- Read at row `r = 256 t + p`: row `p` of the block the body leaves at point `t`. -/
theorem final4_row (c : Dev nD) (r : Fin 4096) (t : Fin cfg0.N) (p : Fin 256) (h : r.val = 256 * t.val + p.val) :
    ((dats m 0 c).arrAt 4 cfg0.N : S4096x1.Idx → Elt F .f32) (ix2 r (0 : Fin 1))
      = lossBlock m c t (ix2 p (0 : Fin 1)) := by
  rw [final4]
  exact G_of_row m c t (ix2 p 0) (ix2 r 0) h

/-- Read at row `r`, the point and the row inside its block computed: `t = r / 256`, `p = r % 256`. -/
theorem final4_at (c : Dev nD) (r : Fin 4096) :
    ((dats m 0 c).arrAt 4 cfg0.N : S4096x1.Idx → Elt F .f32) (ix2 r (0 : Fin 1))
      = lossBlock m c (rowPoint (ix2 r (0 : Fin 1))) (ix2 (rowIn (ix2 r (0 : Fin 1))) (0 : Fin 1)) := by
  rw [final4]; rfl

theorem rowPoint_val (r : Fin 4096) : (rowPoint (ix2 r (0 : Fin 1))).val = r.val / 256 := rfl
theorem rowIn_val (r : Fin 4096) : (rowIn (ix2 r (0 : Fin 1))).val = r.val % 256 := rfl

end Cert.KernelIdeal.Arr

end
-- ==== Proof.ArrayTail.lean ====
/-
  The end of @main against the reference, at the ideal instance.

  After the region the host sums the 4096x1 array of per-row losses over both of its axes, from zero, and divides by
  4096. The reference sums its 4096 per-row values from zero and divides by 4096. The two sums run over the same
  terms (the column's indices are the rows), the two constants are the same words, and the division is the same
  function: so once each row of the kernel's array is the reference's per-row value, the two results are equal.
-/
import proofs.«106479_j75033078661970_1_alg».proof.Proof.RunKI
import proofs.«106479_j75033078661970_1_alg».proof.Proof.ArrayBlocks
import proofs.«106479_j75033078661970_1_alg».proof.Proof.ArrayOut
import proofs.«106479_j75033078661970_1_alg».proof.Proof.Gen.ReferenceIdeal.Read
import Idealize.ShloMosaic.Lib.ValueIdx
import Idealize.ShloMosaic.PureOps.Ideal.Laws

set_option maxRecDepth 16384

noncomputable section

namespace Cert.KernelIdeal.Arr

open Cert.KernelIdeal Cert.KernelIdeal.Gen Cert.KernelIdeal.Body Cert.KernelIdeal.Fr
open Idealize.ShloMosaic Idealize.ShloMosaic.TcCoe Idealize.SL.Sem
open Idealize.ShloMosaic.Pipeline (Dat)
open Idealize.ShloMosaic.ValueIdx
open scoped BigOperators

/-! ## The host's mean of the rows

After the region the host sums the 4096x1 result over both of its axes from zero and divides by 4096; the reference
sums its 4096 per-row values from zero and divides by 4096. The column's indices are the rows, so the two sums have
the same terms. -/

/-- The indices of a 4096x1 column are its 4096 rows. -/
def colEquiv : S4096x1.Idx ≃ Cert.ReferenceIdeal.S4096.Idx where
  toFun i := ix1 (i 0)
  invFun j := ix2 (j 0) (0 : Fin 1)
  left_inv i := by
    funext a
    match a with
    | ⟨0, _⟩ => rfl
    | ⟨1, _⟩ => exact Fin.ext (by have := idx2_lt1 i; show 0 = (i 1).val; omega)
  right_inv j := (eq_ix1 j).symm

/-- A column that holds the reference's per-row values has the reference's mean: zero plus the sum over the column,
    divided by 4096, is zero plus the sum over the rows, divided by 4096. -/
theorem tail_eq (arr : (⟨S4096x1, .f32⟩ : BufTy).Contents (Elt Ideal))
    (x : (⟨Cert.ReferenceIdeal.S4096x1024, .f32⟩ : BufTy).Contents (Elt Ideal))
    (lab : (⟨Cert.ReferenceIdeal.S4096, .i32⟩ : BufTy).Contents (Elt Ideal))
    (harr : ∀ r : Fin 4096, arr (ix2 r (0 : Fin 1)) = Cert.ReferenceIdeal.Read.val_main_v51 (F := Ideal) x lab (ix1 r)) :
    Host.divf (F := Ideal) (Host.reduceAdd (F := Ideal) arr (constant (F := Ideal) S_ .f32 0x00000000#32) reducesTo_S4096x1_S_d0_1 h_S_)
        (constant (F := Ideal) S_ .f32 0x45800000#32)
      = Cert.ReferenceIdeal.Read.val_main_v53 (F := Ideal) x lab := by
  funext i
  rw [Cert.ReferenceIdeal.Read.val_main_v53_apply, Cert.ReferenceIdeal.Read.val_main_v52_apply]
  have hsum : Host.reduceAdd (F := Ideal) arr (constant (F := Ideal) S_ .f32 0x00000000#32) reducesTo_S4096x1_S_d0_1 h_S_ i
      = Cert.ReferenceIdeal.Read.val_main_cst_18 (F := Ideal) (Shape.Idx.first Cert.ReferenceIdeal.Gen.h_S_)
        + ∑ j : Cert.ReferenceIdeal.S4096.Idx, Cert.ReferenceIdeal.Read.val_main_v51 (F := Ideal) x lab j := by
    simp only [Host.reduceAdd, Ideal.hostReduceAdd_def]
    rw [Ideal.hostReduceAdd_total reducesTo_S4096x1_S_d0_1 (fun b => b.elim0) arr _ i]
    refine congrArg₂ (· + ·) rfl ?_
    refine Fintype.sum_equiv colEquiv _ _ fun k => ?_
    have hk : k = ix2 (k 0) (0 : Fin 1) := (colEquiv.left_inv k).symm
    rw [hk]
    exact harr (k 0)
  show FloatOps.hostDivf (Host.reduceAdd (F := Ideal) arr (constant (F := Ideal) S_ .f32 0x00000000#32) reducesTo_S4096x1_S_d0_1 h_S_ i) _ = _
  rw [hsum]
  rfl

/-! ## The kernel's result from its rows

The result buffer at the end of @main is the host's mean of the output array the region leaves; row `r` of that
array is row `r % 256` of the block the body leaves at point `r / 256`. So if every row of every block is the
reference's per-row value of the arguments, the result is the reference's. -/

/-- A row below 4096 lies in the row block of one of the 16 points. -/
theorem rowPoint_lt (r : Fin 4096) : r.val / 256 < cfg0.N := by
  rw [show cfg0.N = 16 from N_0]; have := r.isLt; omega

theorem result_of_rows (m : (ℓ : Loc nD τ sig) → Buf (Elt Ideal) ℓ) (c : Dev nD)
    (hrow : ∀ (t : Fin cfg0.N) (p : Fin 256), lossBlock m c t (ix2 p (0 : Fin 1))
      = Cert.ReferenceIdeal.Read.val_main_v51 (F := Ideal) (m ((c : Thread nD τ).loc main_arg0)) (m ((c : Thread nD τ).loc main_arg1))
          (ix1 ⟨256 * t.val + p.val, row_lt t p⟩)) :
    Vend m c main_v5
      = Cert.ReferenceIdeal.Read.val_main_v53 (F := Ideal) (m ((c : Thread nD τ).loc main_arg0)) (m ((c : Thread nD τ).loc main_arg1)) := by
  rw [Vend_main_v5]
  refine tail_eq _ _ _ fun r => ?_
  have hr : r.val = 256 * (r.val / 256) + r.val % 256 := by omega
  rw [final4_row m c r ⟨r.val / 256, rowPoint_lt r⟩ ⟨r.val % 256, Nat.mod_lt _ (by decide)⟩ hr, hrow]
  exact congrArg _ (congrArg ix1 (Fin.ext hr.symm))

end Cert.KernelIdeal.Arr

end
-- ==== Proof.RowSim.lean ====
/-
  The similarity matrix. Entry (p, c) of the kernel's matrix product of a block of rows with the
  transpose of the whole array, accumulated into zero, is the inner product of block row p with
  array row c; entry (r, c) of the reference's dot_general of the array with its transpose is the
  inner product of array rows r and c. When block row p is array row r the two entries are equal.
-/
import proofs.«106479_j75033078661970_1_alg».proof.Proof.Gen.KernelIdeal.Skeleton
import proofs.«106479_j75033078661970_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Proof.Row

open Idealize.ShloMosaic Idealize.ShloMosaic.ValueIdx
open Cert.KernelIdeal Cert.KernelIdeal.Gen
open Cert.ReferenceIdeal.Read

/-- The kernel's dot dimensions: the left operand's row is the output's row … -/
theorem kdot_lhs_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- … its column the contraction coordinate … -/
theorem kdot_lhs_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
/-- … the right operand's row the contraction coordinate … -/
theorem kdot_rhs_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
/-- … and its column the output's column. -/
theorem kdot_rhs_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- So at output (p, c) and contraction coordinate k the left operand is read at (p, k) … -/
theorem kdot_lhs (p : Fin 256) (c : Fin 4096) (k : Fin 1024) :
    dot_S256x1024_S1024x4096_S256x4096_1_0_0_1_n_n.lhsIdx (ix2 p c)
      ((contrEquiv1 dot_S256x1024_S1024x4096_S256x4096_1_0_0_1_n_n 1024 rfl rfl).symm k) = ix2 p k := by
  have hk := contrEquiv1_symm_val dot_S256x1024_S1024x4096_S256x4096_1_0_0_1_n_n 1024 rfl rfl k
  exact funext fun a => Fin.ext (by
    match a with
    | ⟨0, _⟩ => exact kdot_lhs_0 _ _
    | ⟨1, _⟩ => exact (kdot_lhs_1 _ _).trans hk)

/-- … and the right operand at (k, c). -/
theorem kdot_rhs (p : Fin 256) (c : Fin 4096) (k : Fin 1024) :
    dot_S256x1024_S1024x4096_S256x4096_1_0_0_1_n_n.rhsIdx (ix2 p c)
      ((contrEquiv1 dot_S256x1024_S1024x4096_S256x4096_1_0_0_1_n_n 1024 rfl rfl).symm k) = ix2 k c := by
  have hk := contrEquiv1_symm_val dot_S256x1024_S1024x4096_S256x4096_1_0_0_1_n_n 1024 rfl rfl k
  exact funext fun a => Fin.ext (by
    match a with
    | ⟨0, _⟩ => exact (kdot_rhs_0 _ _).trans hk
    | ⟨1, _⟩ => exact kdot_rhs_1 _ _)

/-- The kernel's similarity at (p, c): the inner product of block row p with array row c. -/
theorem pay2_apply (v0 : FVec Ideal S256x1024 .bf16) (v2 : FVec Ideal S4096x1024 .bf16) (p : Fin 256) (c : Fin 4096) :
    k0_pay2 (F := Ideal) v0 v2 (ix2 p c) = ∑ k : Fin 1024, v0 (ix2 p k) * v2 (ix2 c k) := by
  unfold k0_pay2
  refine (Ideal.matmul_constant_zero_apply dot_S256x1024_S1024x4096_S256x4096_1_0_0_1_n_n none _ _ (ix2 p c)).trans ?_
  rw [← Equiv.sum_comp (contrEquiv1 dot_S256x1024_S1024x4096_S256x4096_1_0_0_1_n_n 1024 rfl rfl).symm]
  refine Finset.sum_congr rfl fun k _ => ?_
  rw [kdot_lhs p c k, kdot_rhs p c k, shapeCast_self, shapeCast_self]
  refine congrArg (v0 (ix2 p k) * ·) ?_
  exact transpose_apply [1, 0] v2 transposes_S4096x1024_p1_0_S1024x4096 (ix2 k c) (ix2 c k) (fun b => match b with
    | ⟨0, _⟩ => rfl
    | ⟨1, _⟩ => rfl)

/-- The reference's similarity at (r, c): the inner product of array rows r and c. -/
theorem v1_apply (x : (⟨Cert.ReferenceIdeal.S4096x1024, .f32⟩ : BufTy).Contents (Elt Ideal)) (r c : Fin 4096) :
    val_main_v1 (F := Ideal) x (ix2 r c) = ∑ k : Fin 1024, x (ix2 r k) * x (ix2 c k) := by
  rw [val_main_v1_apply]
  refine Finset.sum_congr rfl fun k _ => ?_
  rw [val_main_v0_apply]
  have e1 : lidx_main_v1 (ix2 r c) k = ix2 r k := funext fun a => Fin.ext (by match a with | ⟨0, _⟩ => rfl | ⟨1, _⟩ => rfl)
  have e2 : idx_main_v0 (ridx_main_v1 (ix2 r c) k) = ix2 c k := funext fun a => Fin.ext (by match a with | ⟨0, _⟩ => rfl | ⟨1, _⟩ => rfl)
  rw [e1, e2]

/-- Where block row p is array row r, the kernel's similarity at (p, c) is the reference's at (r, c). -/
theorem sim_eq (x : (⟨Cert.ReferenceIdeal.S4096x1024, .f32⟩ : BufTy).Contents (Elt Ideal))
    (v0 : FVec Ideal S256x1024 .bf16) (v2 : FVec Ideal S4096x1024 .bf16) (p : Fin 256) (r : Fin 4096)
    (h0 : ∀ k : Fin 1024, v0 (ix2 p k) = x (ix2 r k))
    (h2 : ∀ (c : Fin 4096) (k : Fin 1024), v2 (ix2 c k) = x (ix2 c k)) (c : Fin 4096) :
    k0_pay2 (F := Ideal) v0 v2 (ix2 p c) = val_main_v1 (F := Ideal) x (ix2 r c) := by
  rw [pay2_apply, v1_apply]
  exact Finset.sum_congr rfl fun k _ => by rw [h0 k, h2 c k]

end Cert.Proof.Row

end
-- ==== Proof.RowLayout.lean ====
/-
  The two keepdims layout steps of a row reduction, read at an index: a vector of one value per row
  cast to a column, and a column broadcast along the lanes.
-/
import Idealize.ShloMosaic.Lib.ValueIdx
import Idealize.ShloMosaic.Lib.ValueLayout
import Idealize.ShloMosaic.Lib.Pipeline.Value

namespace Cert.Proof.Row

open Idealize.ShloMosaic Idealize.ShloMosaic.ValueIdx

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Row
-- ==== Proof.RowMasks.lean ====
/-
  The label mask and the positive and negative masks. With block row p of the features and of the
  labels being array row r, the kernel's "same label" bit at (p, c) is the reference's at (r, c);
  so are the positive mask (same label and similarity below 1 - eps) and the negative mask (the
  complement of "same label": the kernel flips the bit by exclusive-or with true, the reference by not).
-/
import proofs.«106479_j75033078661970_1_alg».proof.Proof.RowSim
import proofs.«106479_j75033078661970_1_alg».proof.Proof.RowLayout
import Idealize.ShloMosaic.Lib.ValueLayout

noncomputable section

namespace Cert.Proof.Row

open Idealize.ShloMosaic Idealize.ShloMosaic.ValueIdx
open Cert.KernelIdeal Cert.KernelIdeal.Gen
open Cert.ReferenceIdeal.Read

/-- What the bridge assumes of the kernel's four loaded vectors at block row `p`, array row `r`: the feature block's row
    `p` is the array's row `r`, the second feature window is the whole array, the label column's entry `p` is label `r`,
    and the label row is the whole label vector. -/
structure RowHyp (x : (⟨Cert.ReferenceIdeal.S4096x1024, .f32⟩ : BufTy).Contents (Elt Ideal))
    (lab : (⟨Cert.ReferenceIdeal.S4096, .i32⟩ : BufTy).Contents (Elt Ideal))
    (v0 : Vec Ideal S256x1024 .bf16) (v2 : Vec Ideal S4096x1024 .bf16) (v6 : Vec Ideal S256x1 .i32) (v8 : Vec Ideal S1x4096 .i32)
    (p : Fin 256) (r : Fin 4096) : Prop where
  h0 : ∀ k : Fin 1024, v0 (ix2 p k) = x (ix2 r k)
  h2 : ∀ (c : Fin 4096) (k : Fin 1024), v2 (ix2 c k) = x (ix2 c k)
  h6 : v6 (ix2 p (0 : Fin 1)) = lab (ix1 r)
  h8 : ∀ c : Fin 4096, v8 (ix2 (0 : Fin 1) c) = lab (ix1 c)

variable (x : (⟨Cert.ReferenceIdeal.S4096x1024, .f32⟩ : BufTy).Contents (Elt Ideal))
  (lab : (⟨Cert.ReferenceIdeal.S4096, .i32⟩ : BufTy).Contents (Elt Ideal))
  (v0 : Vec Ideal S256x1024 .bf16) (v2 : Vec Ideal S4096x1024 .bf16) (v6 : Vec Ideal S256x1 .i32) (v8 : Vec Ideal S1x4096 .i32)
  (p : Fin 256) (r : Fin 4096)

/-- The reference's label column broadcast along the lanes reads label `r` at (r, c) … -/
theorem v4_apply (r c : Fin 4096) : val_main_v4 (F := Ideal) lab (ix2 r c) = lab (ix1 r) := by
  rw [val_main_v4_apply, val_main_v2_apply]
  exact congrArg lab (funext fun a => Fin.ext (by match a with | ⟨0, _⟩ => rfl))

/-- … and its label row broadcast down the rows reads label `c`. -/
theorem v5_apply (r c : Fin 4096) : val_main_v5 (F := Ideal) lab (ix2 r c) = lab (ix1 c) := by
  rw [val_main_v5_apply, val_main_v3_apply]
  exact congrArg lab (funext fun a => Fin.ext (by match a with | ⟨0, _⟩ => rfl))

variable {x lab v0 v2 v6 v8 p r}

/-- The similarity at (p, c) is the reference's at (r, c). -/
theorem RowHyp.sim (H : RowHyp x lab v0 v2 v6 v8 p r) (c : Fin 4096) :
    k0_pay2 (F := Ideal) v0 v2 (ix2 p c) = val_main_v1 (F := Ideal) x (ix2 r c) :=
  sim_eq x v0 v2 p r H.h0 H.h2 c

/-- "Same label" at (p, c) is the reference's at (r, c). -/
theorem RowHyp.same (H : RowHyp x lab v0 v2 v6 v8 p r) (c : Fin 4096) :
    k0_pay3 (F := Ideal) v6 v8 (ix2 p c) = val_main_v6 (F := Ideal) lab (ix2 r c) := by
  have e1 : broadcastTo S256x4096 (shapeCast S256x1 v6 shapeCasts_S256x1_S256x1) broadcasts_S256x1_S256x4096 (ix2 p c)
      = lab (ix1 r) := by
    rw [broadcastTo_a1_ab_apply, shapeCast_self]; exact H.h6
  have e2 : broadcastTo S256x4096 (shapeCast S1x4096 v8 shapeCasts_S1x4096_S1x4096) broadcasts_S1x4096_S256x4096 (ix2 p c)
      = lab (ix1 c) := by
    rw [broadcastTo_1b_ab_apply, shapeCast_self]; exact H.h8 c
  exact (congrArg₂ (IntOp.cmpi .eq) e1 e2).trans
    (congrArg₂ (IntOp.cmpi .eq) (v4_apply lab r c) (v5_apply lab r c)).symm

/-- The positive mask at (p, c) is the reference's at (r, c). -/
theorem RowHyp.pos (H : RowHyp x lab v0 v2 v6 v8 p r) (c : Fin 4096) :
    k0_pay4 (F := Ideal) v0 v2 v6 v8 (ix2 p c) = val_main_v9 (F := Ideal) x lab (ix2 r c) :=
  congrArg₂ IntOp.andi (H.same c)
    (congrArg (fun s : Ideal .f32 => FloatOps.cmpf .olt s (Scalar.ofBits (F := Ideal) .f32 0x3F7FFF58#32)) (H.sim c))

/-- On one bit, exclusive-or with `1` is the complement. -/
theorem xori_one : ∀ b : BitVec 1, IntOp.xori b 1#1 = ~~~b := by decide

/-- The negative mask at (p, c) is the reference's at (r, c). -/
theorem RowHyp.neg (H : RowHyp x lab v0 v2 v6 v8 p r) (c : Fin 4096) :
    k0_pay5 (F := Ideal) v6 v8 (ix2 p c) = val_main_v10 (F := Ideal) lab (ix2 r c) :=
  (xori_one _).trans (congrArg (fun b : BitVec 1 => ~~~b) (H.same c))

end Cert.Proof.Row

end
-- ==== Proof.RowReduce.lean ====
/-
  A reduction along the lanes of a matrix, read at a row: the kernel's lane reduction and the host's
  reduce over axis 1 are both the fold (or the sum) of the row's entries from the initial value, so
  two matrices that agree along a pair of rows have the same reduced value at those rows.
-/
import Idealize.ShloMosaic.Lib.ValueIdx
import Idealize.ShloMosaic.PureOps.Ideal.Laws
import Idealize.ShloMosaic.PureOps.Reduce

noncomputable section

namespace Cert.Proof.Row

open Idealize.ShloMosaic Idealize.ShloMosaic.ValueIdx

/-- Row `p` of an `[m, n]` matrix with the lane `k` put back is `(p, k)`. -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A fold over the lanes put back into row `p` is the fold over the row's entries. -/
theorem fold_row {α : Type} {m n : Nat} (h : (⟨2, ![m, n]⟩ : Shape).Reduces [1] (⟨1, ![m]⟩ : Shape)) (op : α → α → α)
    [Std.Commutative op] [Std.Associative op] (b : α) (x : (⟨2, ![m, n]⟩ : Shape).Idx → α) (p : Fin m) :
    (Finset.univ : Finset (Fin ((⟨2, ![m, n]⟩ : Shape).size 1))).fold op b (x ∘ h.lift (ix1 p))
      = (Finset.univ : Finset (Fin n)).fold op b (fun k => x (ix2 p k)) := by
  have hf : (x ∘ h.lift (ix1 p)) = fun k : Fin n => x (ix2 p k) := funext fun k => congrArg x (lift_row h p k)
  exact congrArg (fun f => Finset.fold op b f (Finset.univ : Finset (Fin n))) hf

/-- A float lane minimum over one axis, read at the ideal values: the fold of `min` from the accumulator's value over
    that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The kernel's lane maximum of an `[m, n]` matrix at row `p`: the maximum of the row from the accumulator's value. -/
theorem mred_max_row {m n : Nat} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] ⟨1, ![m]⟩ src acc h hφ hacc (ix1 p)
      = (Finset.univ : Finset (Fin n)).fold max (Ideal.ofBits .f32 acc) (fun k => src (ix2 p k)) :=
  (Ideal.multiReduction_maximumf_single src acc h hφ hacc (ix1 p)).trans (fold_row h max _ src p)

/-- The kernel's lane minimum likewise. -/
theorem mred_min_row {m n : Nat} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.minimumf.neutral .f32 hφ) (p : Fin m) :
    multiReduction .minimumf [1] ⟨1, ![m]⟩ src acc h hφ hacc (ix1 p)
      = (Finset.univ : Finset (Fin n)).fold min (Ideal.ofBits .f32 acc) (fun k => src (ix2 p k)) :=
  (multiReduction_minimumf_single src acc h hφ hacc (ix1 p)).trans (fold_row h min _ src p)

/-- The kernel's lane sum at row `p`: the sum of the row. -/
theorem mred_add_row {m n : Nat} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- The host's reduce of an `[m, n]` array over axis 1 by a commutative and associative body, at row `r`: the fold of
    the row from the initial value. -/
theorem hred_row {α : Type} {m n : Nat} {u : Shape} (f : α → α → α) [Std.Commutative f] [Std.Associative f]
    (x : (⟨2, ![m, n]⟩ : Shape).Idx → α) (init : u.Idx → α)
    (h' : (⟨2, ![m, n]⟩ : Shape).ReducesTo [1] (⟨1, ![m]⟩ : Shape))
    (h : (⟨2, ![m, n]⟩ : Shape).Reduces [1] (⟨1, ![m]⟩ : Shape)) (hu : 0 < u.numel) (r : Fin m) :
    Host.reduce f x init h' hu (ix1 r)
      = (Finset.univ : Finset (Fin n)).fold f (init (Shape.Idx.first hu)) (fun k => x (ix2 r k)) :=
  (Host.reduce_eq_fold_single f x init h' h hu (ix1 r)).trans (fold_row h f _ x r)

end Cert.Proof.Row

end
-- ==== Proof.RowMinMax.lean ====
/-
  Hard mining. The row minimum of the positive similarities and the row maximum of the negative ones:
  the kernel takes them as lane reductions of one block row, the reference as reduces over axis 1 of
  the whole matrix; both are the fold over the 4096 entries of the row, and the rows agree entry by
  entry, so at block row p / array row r they are equal. The two selected masks follow: a negative is
  kept when its similarity plus the margin is above the row's minimum positive, a positive when its
  similarity minus the margin is below the row's maximum negative.
-/
import proofs.«106479_j75033078661970_1_alg».proof.Proof.RowMasks
import proofs.«106479_j75033078661970_1_alg».proof.Proof.RowReduce

noncomputable section

namespace Cert.Proof.Row

open Idealize.ShloMosaic Idealize.ShloMosaic.ValueIdx
open Cert.KernelIdeal Cert.KernelIdeal.Gen
open Cert.ReferenceIdeal.Read

/-! The pointwise vector operations read at an index, each by definition, kept in the instance's own spelling. -/
section Pointwise
variable {s : Shape}
theorem andi_at {w : Nat} (a b : IVec s w) (i : s.Idx) : andi a b i = IntOp.andi (a i) (b i) := rfl
theorem addf_at (a b : FVec Ideal s .f32) (i : s.Idx) : addf a b i = FloatOps.addf (a i) (b i) := rfl
theorem subf_at (a b : FVec Ideal s .f32) (i : s.Idx) : subf a b i = FloatOps.subf (a i) (b i) := rfl
theorem mulf_at (a b : FVec Ideal s .f32) (i : s.Idx) : mulf a b i = FloatOps.mulf (a i) (b i) := rfl
theorem divf_at (a b : FVec Ideal s .f32) (i : s.Idx) : divf a b i = FloatOps.divf (a i) (b i) := rfl
theorem exp_at (a : FVec Ideal s .f32) (i : s.Idx) : exp a i = FloatOps.exp (a i) := rfl
theorem log1p_at (a : FVec Ideal s .f32) (i : s.Idx) : log1p a i = FloatOps.log1p (a i) := rfl
end Pointwise

/-- The kernel's row minimum of the positive similarities: the lane minimum, from plus infinity, of the similarity where
    the positive mask is set and plus infinity elsewhere. -/
def kMinPos (v0 : Vec Ideal S256x1024 .bf16) (v2 : Vec Ideal S4096x1024 .bf16) (v6 : Vec Ideal S256x1 .i32)
    (v8 : Vec Ideal S1x4096 .i32) : FVec Ideal S256 .f32 :=
  multiReduction .minimumf [1] S256
    (select (k0_pay4 (F := Ideal) v0 v2 v6 v8) (k0_pay2 (F := Ideal) v0 v2)
      (broadcast S256x4096 (Scalar.ofBits (F := Ideal) .f32 0x7F800000#32)))
    0x7F800000#32 reduces_S256x4096_S256 (.inl rfl) rfl

/-- The kernel's row maximum of the negative similarities: the lane maximum, from minus infinity, of the similarity where
    the negative mask is set and minus infinity elsewhere. -/
def kMaxNeg (v0 : Vec Ideal S256x1024 .bf16) (v2 : Vec Ideal S4096x1024 .bf16) (v6 : Vec Ideal S256x1 .i32)
    (v8 : Vec Ideal S1x4096 .i32) : FVec Ideal S256 .f32 :=
  multiReduction .maximumf [1] S256
    (select (k0_pay5 (F := Ideal) v6 v8) (k0_pay2 (F := Ideal) v0 v2)
      (broadcast S256x4096 (Scalar.ofBits (F := Ideal) .f32 0xFF800000#32)))
    0xFF800000#32 reduces_S256x4096_S256 (.inl rfl) rfl

variable (x : (⟨Cert.ReferenceIdeal.S4096x1024, .f32⟩ : BufTy).Contents (Elt Ideal))
  (lab : (⟨Cert.ReferenceIdeal.S4096, .i32⟩ : BufTy).Contents (Elt Ideal))
  (v0 : Vec Ideal S256x1024 .bf16) (v2 : Vec Ideal S4096x1024 .bf16) (v6 : Vec Ideal S256x1 .i32) (v8 : Vec Ideal S1x4096 .i32)
  (p : Fin 256) (r : Fin 4096)

/-- The kernel's selected-negatives mask at (p, c): negative, and similarity plus margin above the row's minimum positive. -/
theorem pay6_apply (p : Fin 256) (c : Fin 4096) :
    k0_pay6 (F := Ideal) v0 v2 v6 v8 (ix2 p c)
      = IntOp.andi (k0_pay5 (F := Ideal) v6 v8 (ix2 p c))
          (FloatOps.cmpf .ogt
            (FloatOps.addf (k0_pay2 (F := Ideal) v0 v2 (ix2 p c)) (Scalar.ofBits (F := Ideal) .f32 0x3DCCCCCD#32))
            (kMinPos v0 v2 v6 v8 (ix1 p))) := by
  unfold k0_pay6 kMinPos
  rw [andi_at, cmpf_apply, addf_at, broadcast_apply, broadcastTo_a1_ab_apply, shapeCast_a_a1_apply]

/-- The kernel's selected-positives mask at (p, c): positive, and similarity minus margin below the row's maximum negative. -/
theorem pay7_apply (p : Fin 256) (c : Fin 4096) :
    k0_pay7 (F := Ideal) v0 v2 v6 v8 (ix2 p c)
      = IntOp.andi (k0_pay4 (F := Ideal) v0 v2 v6 v8 (ix2 p c))
          (FloatOps.cmpf .olt
            (FloatOps.subf (k0_pay2 (F := Ideal) v0 v2 (ix2 p c)) (Scalar.ofBits (F := Ideal) .f32 0x3DCCCCCD#32))
            (kMaxNeg v0 v2 v6 v8 (ix1 p))) := by
  unfold k0_pay7 kMaxNeg
  rw [andi_at, cmpf_apply, subf_at, broadcast_apply, broadcastTo_a1_ab_apply, shapeCast_a_a1_apply]

/-- The reference's row minimum broadcast back over the matrix reads the minimum of row `r` at (r, c). -/
theorem v18_apply (r c : Fin 4096) :
    val_main_v18 (F := Ideal) x lab (ix2 r c) = val_main_v12 (F := Ideal) x lab (ix1 r) := by
  rw [val_main_v18_apply, val_main_v17_apply]
  exact congrArg _ (funext fun a => Fin.ext (by match a with | ⟨0, _⟩ => rfl))

/-- The reference's row maximum broadcast back over the matrix reads the maximum of row `r` at (r, c). -/
theorem v24_apply (r c : Fin 4096) :
    val_main_v24 (F := Ideal) x lab (ix2 r c) = val_main_v14 (F := Ideal) x lab (ix1 r) := by
  rw [val_main_v24_apply, val_main_v23_apply]
  exact congrArg _ (funext fun a => Fin.ext (by match a with | ⟨0, _⟩ => rfl))

variable {x lab v0 v2 v6 v8 p r}

/-- The masked similarity the minimum is taken of agrees along the row. -/
theorem RowHyp.sel_pos (H : RowHyp x lab v0 v2 v6 v8 p r) (k : Fin 4096) :
    Scalar.select (k0_pay4 (F := Ideal) v0 v2 v6 v8 (ix2 p k)) (k0_pay2 (F := Ideal) v0 v2 (ix2 p k))
        (Scalar.ofBits (F := Ideal) .f32 0x7F800000#32)
      = val_main_v11 (F := Ideal) x lab (ix2 r k) := by
  rw [H.pos k, H.sim k]; rfl

/-- The masked similarity the maximum is taken of agrees along the row. -/
theorem RowHyp.sel_neg (H : RowHyp x lab v0 v2 v6 v8 p r) (k : Fin 4096) :
    Scalar.select (k0_pay5 (F := Ideal) v6 v8 (ix2 p k)) (k0_pay2 (F := Ideal) v0 v2 (ix2 p k))
        (Scalar.ofBits (F := Ideal) .f32 0xFF800000#32)
      = val_main_v13 (F := Ideal) x lab (ix2 r k) := by
  rw [H.neg k, H.sim k]; rfl

/-- The ideal instance's minimum and maximum are the order's: a fold by either is the same fold. -/
theorem fold_minimumf_eq {ι : Type} (s : Finset ι) (b : EReal) (f : ι → EReal) :
    s.fold (FloatOps.minimumf (F := Ideal) (φ := .f32)) b f = s.fold min b f := rfl
theorem fold_maximumf_eq {ι : Type} (s : Finset ι) (b : EReal) (f : ι → EReal) :
    s.fold (FloatOps.maximumf (F := Ideal) (φ := .f32)) b f = s.fold max b f := rfl

/-- The reference's splat constants, read at an index. -/
theorem c_v15 (i : Cert.ReferenceIdeal.S4096x4096.Idx) :
    val_main_v15 (F := Ideal) i = Scalar.ofBits (F := Ideal) .f32 0x3DCCCCCD#32 := rfl
theorem c_v21 (i : Cert.ReferenceIdeal.S4096x4096.Idx) :
    val_main_v21 (F := Ideal) i = Scalar.ofBits (F := Ideal) .f32 0x3DCCCCCD#32 := rfl

/-- The row minimum of the positives: the kernel's at block row p is the reference's at array row r. -/
theorem RowHyp.minrow (H : RowHyp x lab v0 v2 v6 v8 p r) :
    kMinPos v0 v2 v6 v8 (ix1 p) = val_main_v12 (F := Ideal) x lab (ix1 r) := by
  have hk := mred_min_row (select (k0_pay4 (F := Ideal) v0 v2 v6 v8) (k0_pay2 (F := Ideal) v0 v2)
    (broadcast S256x4096 (Scalar.ofBits (F := Ideal) .f32 0x7F800000#32))) 0x7F800000#32 reduces_S256x4096_S256 (.inl rfl) rfl p
  have hr := hred_row (FloatOps.minimumf (F := Ideal) (φ := .f32)) (val_main_v11 (F := Ideal) x lab) (val_main_cst_1 (F := Ideal))
    Cert.ReferenceIdeal.Gen.reducesTo_S4096x4096_S4096_d1 (by decide) Cert.ReferenceIdeal.Gen.h_S_ r
  unfold val_main_v12
  rw [hr, fold_minimumf_eq]
  refine hk.trans ?_
  exact congrArg₂ (fun (b : EReal) (f : Fin 4096 → EReal) => Finset.fold min b f (Finset.univ : Finset (Fin 4096))) rfl
    (funext fun k => H.sel_pos k)

/-- The row maximum of the negatives: the kernel's at block row p is the reference's at array row r. -/
theorem RowHyp.maxrow (H : RowHyp x lab v0 v2 v6 v8 p r) :
    kMaxNeg v0 v2 v6 v8 (ix1 p) = val_main_v14 (F := Ideal) x lab (ix1 r) := by
  have hk := mred_max_row (select (k0_pay5 (F := Ideal) v6 v8) (k0_pay2 (F := Ideal) v0 v2)
    (broadcast S256x4096 (Scalar.ofBits (F := Ideal) .f32 0xFF800000#32))) 0xFF800000#32 reduces_S256x4096_S256 (.inl rfl) rfl p
  have hr := hred_row (FloatOps.maximumf (F := Ideal) (φ := .f32)) (val_main_v13 (F := Ideal) x lab) (val_main_cst_3 (F := Ideal))
    Cert.ReferenceIdeal.Gen.reducesTo_S4096x4096_S4096_d1 (by decide) Cert.ReferenceIdeal.Gen.h_S_ r
  unfold val_main_v14
  rw [hr, fold_maximumf_eq]
  refine hk.trans ?_
  exact congrArg₂ (fun (b : EReal) (f : Fin 4096 → EReal) => Finset.fold max b f (Finset.univ : Finset (Fin 4096))) rfl
    (funext fun k => H.sel_neg k)

/-- The selected negatives at (p, c) are the reference's at (r, c). -/
theorem RowHyp.negsel (H : RowHyp x lab v0 v2 v6 v8 p r) (c : Fin 4096) :
    k0_pay6 (F := Ideal) v0 v2 v6 v8 (ix2 p c) = val_main_v20 (F := Ideal) x lab (ix2 r c) := by
  rw [pay6_apply, H.neg c, H.sim c, H.minrow, val_main_v20_apply, val_main_v19_apply, val_main_v16_apply, c_v15,
    v18_apply x lab r c]

/-- The selected positives at (p, c) are the reference's at (r, c). -/
theorem RowHyp.possel (H : RowHyp x lab v0 v2 v6 v8 p r) (c : Fin 4096) :
    k0_pay7 (F := Ideal) v0 v2 v6 v8 (ix2 p c) = val_main_v26 (F := Ideal) x lab (ix2 r c) := by
  rw [pay7_apply, H.pos c, H.sim c, H.maxrow, val_main_v26_apply, val_main_v25_apply, val_main_v22_apply, c_v21,
    v24_apply x lab r c]

end Cert.Proof.Row

end
-- ==== Proof.RowAny.lean ====
/-
  "Some entry of a mask is set", two ways. The kernel takes the maximum, from minus infinity, of the
  mask turned into ones and zeros and asks whether it is above zero; the reference folds the mask's
  bits by `or` from `false`. Both are the bit "some entry is 1".
-/
import Idealize.ShloMosaic.Lib.ValueIdx
import Idealize.ShloMosaic.PureOps.Ideal.Laws
import Idealize.ShloMosaic.PureOps.Reduce

noncomputable section

namespace Cert.Proof.Row

open Idealize.ShloMosaic Idealize.ShloMosaic.ValueIdx

/-- A maximum is above `z` exactly when one of its operands is. -/
theorem cmp_ogt_max (u v z : EReal) :
    Ideal.cmp .ogt (max u v) z = IntOp.ori (Ideal.cmp .ogt u z) (Ideal.cmp .ogt v z) := by
  unfold Ideal.cmp IntOp.ori
  by_cases hu : z < u <;> by_cases hv : z < v <;> simp [lt_max_iff, hu, hv]

/-- The bit pattern of the f32 minus infinity is the bottom of the extended reals. -/
theorem ofBits_neg_inf : Ideal.ofBits .f32 0xFF800000#32 = ⊥ := by simp [Ideal.ofBits, Ideal.ieee]
/-- The bit pattern of the f32 plus infinity is the top of the extended reals. -/
theorem ofBits_pos_inf : Ideal.ofBits .f32 0x7F800000#32 = ⊤ := by simp [Ideal.ofBits, Ideal.ieee]
/-- The bit pattern of the f32 one is one. -/
theorem ofBits_one : Ideal.ofBits .f32 0x3F800000#32 = 1 := by
  simp [Ideal.ofBits, Ideal.ieee, -EReal.coe_mul]; norm_num

/-- Over any finite set of positions: the maximum from minus infinity of a mask's entries as `1.0` / `0.0` is
    above zero exactly when the `or` of the mask's bits from `false` is set. -/
theorem any_eq_or {ι : Type} [DecidableEq ι] (s : Finset ι) (m : ι → BitVec 1) :
    Ideal.cmp .ogt (s.fold max (Ideal.ofBits .f32 0xFF800000#32)
        (fun k => Scalar.select (m k) (Ideal.ofBits .f32 0x3F800000#32) (Ideal.ofBits .f32 0x00000000#32)))
      (Ideal.ofBits .f32 0x00000000#32) = s.fold IntOp.ori 0#1 m := by
  rw [ofBits_neg_inf, ofBits_one, Ideal.ofBits_zero_f32]
  induction s using Finset.induction_on with
  | empty =>
    rw [Finset.fold_empty, Finset.fold_empty]
    simp [Ideal.cmp]
  | insert a s ha ih =>
    rw [Finset.fold_insert ha, Finset.fold_insert ha, cmp_ogt_max, ih]
    refine congrArg (IntOp.ori · _) ?_
    rcases BitVec.eq_zero_or_eq_one (m a) with h | h <;> rw [h] <;> simp [Scalar.select, Ideal.cmp]

end Cert.Proof.Row

end
-- ==== Proof.RowLoss.lean ====
/-
  From the selected masks to the stored loss. The kernel's last payload, given the similarity, the
  two selected masks and the positive exponential term, forms the negative exponential term, the two
  row sums, the two logarithms and quotients, the two "some entry selected" bits, and the final
  select. Each piece, read at block row p, is the reference's stage at array row r.
-/
import proofs.«106479_j75033078661970_1_alg».proof.Proof.RowMinMax
import proofs.«106479_j75033078661970_1_alg».proof.Proof.RowAny

noncomputable section

namespace Cert.Proof.Row

open Idealize.ShloMosaic Idealize.ShloMosaic.ValueIdx
open Cert.KernelIdeal Cert.KernelIdeal.Gen
open Cert.ReferenceIdeal.Read

/-- The kernel's row sum of the positive terms: the exponential where the selected-positives mask is set, zero elsewhere,
    summed along the lanes. -/
def kPosSum (v34 : IVec S256x4096 1) (v39 : FVec Ideal S256x4096 .f32) : FVec Ideal S256 .f32 :=
  multiReduction .add [1] S256 (select v34 v39 (broadcast S256x4096 (Scalar.ofBits (F := Ideal) .f32 0x00000000#32)))
    0x00000000#32 reduces_S256x4096_S256 (.inl rfl) rfl

/-- The kernel's row sum of the negative terms: `exp (40 (s - 1/2))` of the similarity `s` where the selected-negatives
    mask is set, zero elsewhere, summed along the lanes. -/
def kNegSum (v5 : FVec Ideal S256x4096 .f32) (v29 : IVec S256x4096 1) : FVec Ideal S256 .f32 :=
  multiReduction .add [1] S256
    (select v29
      (exp (mulf (broadcast S256x4096 (Scalar.ofBits (F := Ideal) .f32 0x42200000#32))
        (subf v5 (broadcast S256x4096 (Scalar.ofBits (F := Ideal) .f32 0x3F000000#32)))))
      (broadcast S256x4096 (Scalar.ofBits (F := Ideal) .f32 0x00000000#32)))
    0x00000000#32 reduces_S256x4096_S256 (.inl rfl) rfl

/-- The kernel's "some entry of the row's mask is set": the lane maximum, from minus infinity, of the mask as ones and
    zeros, compared above zero. -/
def kAny (m : IVec S256x4096 1) : IVec S256 1 :=
  cmpf .ogt
    (multiReduction .maximumf [1] S256
      (select m (broadcast S256x4096 (Scalar.ofBits (F := Ideal) .f32 0x3F800000#32))
        (broadcast S256x4096 (Scalar.ofBits (F := Ideal) .f32 0x00000000#32)))
      0xFF800000#32 reduces_S256x4096_S256 (.inl rfl) rfl)
    (broadcast S256 (Scalar.ofBits (F := Ideal) .f32 0x00000000#32))

/-- The stored block at (p, 0), in those pieces. -/
theorem pay1_apply (v5 : FVec Ideal S256x4096 .f32) (v29 v34 : IVec S256x4096 1) (v39 : FVec Ideal S256x4096 .f32) (p : Fin 256) :
    k0_pay1 (F := Ideal) v5 v29 v34 v39 (ix2 p (0 : Fin 1))
      = Scalar.select (IntOp.andi (kAny v34 (ix1 p)) (kAny v29 (ix1 p)))
          (FloatOps.addf
            (FloatOps.divf (FloatOps.log1p (kPosSum v34 v39 (ix1 p))) (Scalar.ofBits (F := Ideal) .f32 0x40000000#32))
            (FloatOps.divf (FloatOps.log1p (kNegSum v5 v29 (ix1 p))) (Scalar.ofBits (F := Ideal) .f32 0x42200000#32)))
          (Scalar.ofBits (F := Ideal) .f32 0x00000000#32) := by
  unfold k0_pay1 kAny kPosSum kNegSum
  rw [select_apply, andi_at, addf_at, divf_at, divf_at, log1p_at, log1p_at, broadcast_apply, broadcast_apply, broadcast_apply,
    shapeCast_a_a1_apply, shapeCast_a_a1_apply, shapeCast_a_a1_apply, shapeCast_a_a1_apply]

/-- The kernel's "some entry set" bit at row p is the `or` of the row's mask bits. -/
theorem kAny_apply (m : IVec S256x4096 1) (p : Fin 256) :
    kAny m (ix1 p) = (Finset.univ : Finset (Fin 4096)).fold IntOp.ori 0#1 (fun k => m (ix2 p k)) := by
  have h := mred_max_row (select m (broadcast S256x4096 (Scalar.ofBits (F := Ideal) .f32 0x3F800000#32))
    (broadcast S256x4096 (Scalar.ofBits (F := Ideal) .f32 0x00000000#32))) 0xFF800000#32 reduces_S256x4096_S256 (.inl rfl) rfl p
  unfold kAny
  rw [cmpf_apply, broadcast_apply, h, Ideal.cmpf_def]
  exact any_eq_or Finset.univ (fun k => m (ix2 p k))

/-- The host's one-operand operations and quotient are the kernel's at the ideal values. -/
theorem hostUnary_exp (a : Ideal .f32) : FloatOps.hostUnary .exp a = FloatOps.exp a := rfl
theorem hostUnary_log1p (a : Ideal .f32) : FloatOps.hostUnary .log1p a = FloatOps.log1p a := rfl
theorem hostDivf_eq (a b : Ideal .f32) : FloatOps.hostDivf a b = FloatOps.divf a b := rfl

/-- The reference's splat constants, read at an index. -/
theorem c_v27 (i : Cert.ReferenceIdeal.S4096x4096.Idx) :
    val_main_v27 (F := Ideal) i = Scalar.ofBits (F := Ideal) .f32 0x3F000000#32 := rfl
theorem c_v29 (i : Cert.ReferenceIdeal.S4096x4096.Idx) :
    val_main_v29 (F := Ideal) i = Scalar.ofBits (F := Ideal) .f32 0xC0000000#32 := rfl
theorem c_v34 (i : Cert.ReferenceIdeal.S4096x4096.Idx) :
    val_main_v34 (F := Ideal) i = Scalar.ofBits (F := Ideal) .f32 0x3F000000#32 := rfl
theorem c_v36 (i : Cert.ReferenceIdeal.S4096x4096.Idx) :
    val_main_v36 (F := Ideal) i = Scalar.ofBits (F := Ideal) .f32 0x42200000#32 := rfl
theorem c_call2 (i : Cert.ReferenceIdeal.S4096x4096.Idx) :
    val_main_call2_v1 (F := Ideal) i = Scalar.ofBits (F := Ideal) .f32 0x00000000#32 := rfl
theorem c_call3 (i : Cert.ReferenceIdeal.S4096x4096.Idx) :
    val_main_call3_v1 (F := Ideal) i = Scalar.ofBits (F := Ideal) .f32 0x00000000#32 := rfl
theorem c_v42 (i : Cert.ReferenceIdeal.S4096.Idx) :
    val_main_v42 (F := Ideal) i = Scalar.ofBits (F := Ideal) .f32 0x40000000#32 := rfl
theorem c_v45 (i : Cert.ReferenceIdeal.S4096.Idx) :
    val_main_v45 (F := Ideal) i = Scalar.ofBits (F := Ideal) .f32 0x42200000#32 := rfl
theorem c_call4 (i : Cert.ReferenceIdeal.S4096.Idx) :
    val_main_call4_v1 (F := Ideal) i = Scalar.ofBits (F := Ideal) .f32 0x00000000#32 := rfl
theorem c_cst9 : val_main_cst_9 (F := Ideal) (Shape.Idx.first Cert.ReferenceIdeal.Gen.h_S_) = 0 := Ideal.ofBits_zero_f32
theorem c_cst13 : val_main_cst_13 (F := Ideal) (Shape.Idx.first Cert.ReferenceIdeal.Gen.h_S_) = 0 := Ideal.ofBits_zero_f32
theorem c_c : val_main_c (F := Ideal) (Shape.Idx.first Cert.ReferenceIdeal.Gen.h_S_) = 0#1 := rfl
theorem c_c16 : val_main_c_16 (F := Ideal) (Shape.Idx.first Cert.ReferenceIdeal.Gen.h_S_) = 0#1 := rfl

variable (x : (⟨Cert.ReferenceIdeal.S4096x1024, .f32⟩ : BufTy).Contents (Elt Ideal))
  (lab : (⟨Cert.ReferenceIdeal.S4096, .i32⟩ : BufTy).Contents (Elt Ideal))
  (v0 : Vec Ideal S256x1024 .bf16) (v2 : Vec Ideal S4096x1024 .bf16) (v6 : Vec Ideal S256x1 .i32) (v8 : Vec Ideal S1x4096 .i32)
  (p : Fin 256) (r : Fin 4096)

/-- The reference's `or`-reduce of a mask over axis 1, at row r, is the `or` of the row's bits. -/
theorem hor_row (M : (⟨Cert.ReferenceIdeal.S4096x4096, .i1⟩ : BufTy).Contents (Elt Ideal))
    (init : (⟨Cert.ReferenceIdeal.S_, .i1⟩ : BufTy).Contents (Elt Ideal)) (r : Fin 4096) :
    Host.reduce IntOp.ori M init Cert.ReferenceIdeal.Gen.reducesTo_S4096x4096_S4096_d1 Cert.ReferenceIdeal.Gen.h_S_ (ix1 r)
      = (Finset.univ : Finset (Fin 4096)).fold IntOp.ori (init (Shape.Idx.first Cert.ReferenceIdeal.Gen.h_S_)) (fun k => M (ix2 r k)) :=
  hred_row IntOp.ori M init Cert.ReferenceIdeal.Gen.reducesTo_S4096x4096_S4096_d1 (by decide) Cert.ReferenceIdeal.Gen.h_S_ r

/-- The reference's row sums read the row: the sum index of row r at lane k is (r, k). -/
theorem idx33 (r k : Fin 4096) : idx_main_v33 (ix1 r) k = ix2 r k :=
  funext fun a => Fin.ext (by match a with | ⟨0, _⟩ => rfl | ⟨1, _⟩ => rfl)
theorem idx40 (r k : Fin 4096) : idx_main_v40 (ix1 r) k = ix2 r k :=
  funext fun a => Fin.ext (by match a with | ⟨0, _⟩ => rfl | ⟨1, _⟩ => rfl)

variable {x lab v0 v2 v6 v8 p r}

/-- The positive exponential term at (p, c) is the reference's at (r, c). -/
theorem RowHyp.posexp (H : RowHyp x lab v0 v2 v6 v8 p r) (c : Fin 4096) :
    k0_pay8 (F := Ideal) v0 v2 (ix2 p c) = val_main_v31 (F := Ideal) x (ix2 r c) := by
  unfold k0_pay8
  rw [exp_at, mulf_at, subf_at, broadcast_apply, broadcast_apply, H.sim c, val_main_v31_apply, val_main_v30_apply,
    val_main_v28_apply, c_v29, c_v27, hostUnary_exp]

/-- The row sum of the positive terms at block row p is the reference's at array row r. -/
theorem RowHyp.possum (H : RowHyp x lab v0 v2 v6 v8 p r) :
    kPosSum (k0_pay7 (F := Ideal) v0 v2 v6 v8) (k0_pay8 (F := Ideal) v0 v2) (ix1 p)
      = val_main_v33 (F := Ideal) x lab (ix1 r) := by
  have hk := mred_add_row (select (k0_pay7 (F := Ideal) v0 v2 v6 v8) (k0_pay8 (F := Ideal) v0 v2)
    (broadcast S256x4096 (Scalar.ofBits (F := Ideal) .f32 0x00000000#32))) 0x00000000#32 reduces_S256x4096_S256 (.inl rfl) rfl p
  unfold kPosSum
  refine hk.trans ?_
  rw [val_main_v33_apply, c_cst9, zero_add]
  refine Finset.sum_congr rfl fun k _ => ?_
  rw [idx33, select_apply, broadcast_apply, H.possel k, H.posexp k, val_main_v32_apply, c_call2]

/-- The row sum of the negative terms at block row p is the reference's at array row r. -/
theorem RowHyp.negsum (H : RowHyp x lab v0 v2 v6 v8 p r) :
    kNegSum (k0_pay2 (F := Ideal) v0 v2) (k0_pay6 (F := Ideal) v0 v2 v6 v8) (ix1 p)
      = val_main_v40 (F := Ideal) x lab (ix1 r) := by
  have hk := mred_add_row (select (k0_pay6 (F := Ideal) v0 v2 v6 v8)
      (exp (mulf (broadcast S256x4096 (Scalar.ofBits (F := Ideal) .f32 0x42200000#32))
        (subf (k0_pay2 (F := Ideal) v0 v2) (broadcast S256x4096 (Scalar.ofBits (F := Ideal) .f32 0x3F000000#32)))))
      (broadcast S256x4096 (Scalar.ofBits (F := Ideal) .f32 0x00000000#32))) 0x00000000#32 reduces_S256x4096_S256 (.inl rfl) rfl p
  unfold kNegSum
  refine hk.trans ?_
  rw [val_main_v40_apply, c_cst13, zero_add]
  refine Finset.sum_congr rfl fun k _ => ?_
  rw [idx40, select_apply, exp_at, mulf_at, subf_at, broadcast_apply, broadcast_apply, broadcast_apply, H.negsel k, H.sim k,
    val_main_v39_apply, val_main_v38_apply, val_main_v37_apply, val_main_v35_apply, c_v36, c_v34, c_call3, hostUnary_exp]

/-- "Some positive is selected in the row": the kernel's bit at block row p is the reference's at array row r. -/
theorem RowHyp.anypos (H : RowHyp x lab v0 v2 v6 v8 p r) :
    kAny (k0_pay7 (F := Ideal) v0 v2 v6 v8) (ix1 p) = val_main_v47 (F := Ideal) x lab (ix1 r) := by
  unfold val_main_v47
  rw [kAny_apply, hor_row, c_c]
  exact congrArg (fun f => Finset.fold IntOp.ori 0#1 f (Finset.univ : Finset (Fin 4096))) (funext fun k => H.possel k)

/-- "Some negative is selected in the row" likewise. -/
theorem RowHyp.anyneg (H : RowHyp x lab v0 v2 v6 v8 p r) :
    kAny (k0_pay6 (F := Ideal) v0 v2 v6 v8) (ix1 p) = val_main_v48 (F := Ideal) x lab (ix1 r) := by
  unfold val_main_v48
  rw [kAny_apply, hor_row, c_c16]
  exact congrArg (fun f => Finset.fold IntOp.ori 0#1 f (Finset.univ : Finset (Fin 4096))) (funext fun k => H.negsel k)

/-- The stored loss of block row p is the reference's per-row value at array row r. -/
theorem RowHyp.loss (H : RowHyp x lab v0 v2 v6 v8 p r) :
    k0_pay1 (F := Ideal) (k0_pay2 (F := Ideal) v0 v2) (k0_pay6 (F := Ideal) v0 v2 v6 v8) (k0_pay7 (F := Ideal) v0 v2 v6 v8)
        (k0_pay8 (F := Ideal) v0 v2) (ix2 p (0 : Fin 1))
      = val_main_v51 (F := Ideal) x lab (ix1 r) := by
  rw [pay1_apply, H.anypos, H.anyneg, H.possum, H.negsum, val_main_v51_apply, val_main_v49_apply, val_main_v50_apply,
    val_main_v43_apply, val_main_v46_apply, val_main_v41_apply, val_main_v44_apply, c_v42, c_v45, c_call4,
    hostUnary_log1p, hostUnary_log1p, hostDivf_eq, hostDivf_eq]

end Cert.Proof.Row

end
-- ==== Proof.RowBridge.lean ====
/-
  The kernel's stored block against the reference's per-row value. At grid point t the kernel loads
  rows 256 t … 256 t + 255 of the features (and of the labels, as a column), the whole feature array
  and the whole label vector (as a row). Entry (p, 0) of the block it stores — the final select over
  the two logarithm terms — is the reference's per-row loss at row 256 t + p.
-/
import proofs.«106479_j75033078661970_1_alg».proof.Proof.RowLoss

noncomputable section

namespace Cert.Proof.Row

open Idealize.ShloMosaic Idealize.ShloMosaic.ValueIdx
open Cert.KernelIdeal Cert.KernelIdeal.Gen
open Cert.ReferenceIdeal.Read

/-- Entry (p, 0) of the block stored at grid point `t` is the reference's per-row value at row `256 t + p`. -/
theorem row_bridge (x : (⟨Cert.ReferenceIdeal.S4096x1024, .f32⟩ : BufTy).Contents (Elt Ideal))
    (lab : (⟨Cert.ReferenceIdeal.S4096, .i32⟩ : BufTy).Contents (Elt Ideal)) (t : Fin 16)
    (v0 : Vec Ideal S256x1024 .bf16) (v2 : Vec Ideal S4096x1024 .bf16) (v6 : Vec Ideal S256x1 .i32) (v8 : Vec Ideal S1x4096 .i32)
    (h0 : ∀ (p : Fin 256) (k : Fin 1024), v0 (ix2 p k) = x (ix2 (⟨256 * t.val + p.val, by omega⟩ : Fin 4096) k))
    (h2 : ∀ (r : Fin 4096) (k : Fin 1024), v2 (ix2 r k) = x (ix2 r k))
    (h6 : ∀ p : Fin 256, v6 (ix2 p (0 : Fin 1)) = lab (ix1 (⟨256 * t.val + p.val, by omega⟩ : Fin 4096)))
    (h8 : ∀ c : Fin 4096, v8 (ix2 (0 : Fin 1) c) = lab (ix1 c)) (p : Fin 256) :
    k0_pay1 (F := Ideal) (k0_pay2 (F := Ideal) v0 v2) (k0_pay6 (F := Ideal) v0 v2 v6 v8) (k0_pay7 (F := Ideal) v0 v2 v6 v8)
        (k0_pay8 (F := Ideal) v0 v2) (ix2 p (0 : Fin 1))
      = val_main_v51 (F := Ideal) x lab (ix1 (⟨256 * t.val + p.val, by omega⟩ : Fin 4096)) :=
  RowHyp.loss ⟨h0 p, h2, h6 p, h8⟩

end Cert.Proof.Row

end
-- ==== Proof.lean ====
/-
  The proof of `Cert.Claim`: the three frames, the (empty) idealization ledger, and the equality of the idealized
  kernel and the idealized reference over the extended reals.

  The kernel computes, for each row r of a 4096x1024 feature array x with integer labels, a multi-similarity loss
  from the row of similarities s(r,c) = Σ_k x(r,k)·x(c,k): the positive pairs (same label, s < 0.99999) and the
  negative pairs (different label), the row's smallest positive and largest negative similarity, the pairs selected
  against them with margin 0.1, log1p of the two sums of exponentials divided by 2 and by 40, kept only where both
  selections are non-empty; the result is the mean of the rows' values. The kernel does this 256 rows at a time on a
  grid of 16 points, reading the whole feature array beside each block of rows, and the host sums the 4096x1 result
  and divides by 4096; the reference does the same with whole-array operations. Every literal is the same word on
  both sides; at the ideal instance a change of float format is the identity, a matrix product into a zero
  accumulator is the host's dot product, lane reductions are the host's reductions, and "some entry of the mask is
  set" is stated on one side as the row maximum of the mask's indicator being positive and on the other as the
  disjunction over the row. No law used needs finiteness, so the precondition is never opened.
-/
import proofs.«106479_j75033078661970_1_alg».proof.Defs
import proofs.«106479_j75033078661970_1_alg».proof.Proof.Gen.Kernel
import proofs.«106479_j75033078661970_1_alg».proof.Proof.Gen.KernelIdeal
import proofs.«106479_j75033078661970_1_alg».proof.Proof.Gen.ReferenceIdeal
import proofs.«106479_j75033078661970_1_alg».proof.Proof.Gen.Pre_finite_inputs
import proofs.«106479_j75033078661970_1_alg».proof.Proof.Gen.ReferenceIdeal.Run
import proofs.«106479_j75033078661970_1_alg».proof.Proof.Gen.ReferenceIdeal.Read
import proofs.«106479_j75033078661970_1_alg».proof.Proof.RunK
import proofs.«106479_j75033078661970_1_alg».proof.Proof.RunKI
import proofs.«106479_j75033078661970_1_alg».proof.Proof.ArrayEntry
import proofs.«106479_j75033078661970_1_alg».proof.Proof.ArrayTail
import proofs.«106479_j75033078661970_1_alg».proof.Proof.RowBridge

noncomputable section

namespace Cert.Proof

open Idealize.ShloMosaic Idealize.ShloMosaic.TcCoe Idealize.SL.Sem Idealize.ShloMosaic.ValueIdx

/-- The word-level kernel runs to the end and leaves its arguments unchanged. -/
theorem frame_k : Cert.frame_Kernel := fun m ρ _ => Cert.Kernel.Fr.frame m ρ
/-- So does its idealization. -/
theorem frame_ki : Cert.frame_KernelIdeal := fun m ρ _ => Cert.KernelIdeal.Fr.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- One row: entry (p, 0) of the block the body stores at point t is the reference's value of row 256·t + p. The four
    input blocks at the point are rows 256·t … of the feature array, the whole feature array, rows 256·t … of the
    labels and the whole labels, each as the region finds it: the feature array through a change of float format
    (the identity at the ideal instance), the labels through a reshape. -/
theorem row_eq (m : (ℓ : Loc Cert.KernelIdeal.nD Cert.KernelIdeal.τ Cert.KernelIdeal.sig) → Buf (Elt Ideal) ℓ) (c : Dev Cert.KernelIdeal.nD)
    (t : Fin Cert.KernelIdeal.cfg0.N) (p : Fin 256) :
    Cert.KernelIdeal.Arr.lossBlock m c t (ix2 p (0 : Fin 1))
      = Cert.ReferenceIdeal.Read.val_main_v51 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (ix1 ⟨256 * t.val + p.val, Cert.KernelIdeal.Arr.row_lt t p⟩) := by
  rw [Cert.KernelIdeal.Arr.lossBlock_pay]
  exact Cert.Proof.Row.RowHyp.loss
    { h0 := fun k => (Cert.KernelIdeal.Arr.featBlock_ix m c t p k (Cert.KernelIdeal.Arr.row_lt t p)).trans (Cert.KernelIdeal.Arr.V_feat_at m c _ k)
      h2 := fun r k => (Cert.KernelIdeal.Arr.featAll_ix m c t r k).trans (Cert.KernelIdeal.Arr.V_feat_at m c r k)
      h6 := (Cert.KernelIdeal.Arr.labelBlock_ix m c t p (Cert.KernelIdeal.Arr.row_lt t p)).trans (Cert.KernelIdeal.Arr.V_labelCol_at m c _)
      h8 := fun q => (Cert.KernelIdeal.Arr.labelAll_ix m c t q).trans (Cert.KernelIdeal.Arr.V_labelRow_at m c q) }

/-- At the ideal instance the kernel's result buffer ends at the reference's result term of the same arguments: row by
    row the region's result array is the reference's per-row value, and both programs then take the rows' mean. -/
theorem result_eq (m : (ℓ : Loc Cert.KernelIdeal.nD Cert.KernelIdeal.τ Cert.KernelIdeal.sig) → Buf (Elt Ideal) ℓ) (c : Dev Cert.KernelIdeal.nD) :
    Cert.KernelIdeal.Fr.Vend m c Cert.KernelIdeal.main_v5
      = Cert.ReferenceIdeal.Read.val_main_v53 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  Cert.KernelIdeal.Arr.result_of_rows m c (row_eq m c)

/-- Both idealized programs run, from memories agreeing on the arguments, to equal results. -/
theorem algebraic : Cert.algebraic_KernelIdeal_ReferenceIdeal := by
  intro m ρ m' ρ' _ hagree
  refine ⟨fun c => Cert.KernelIdeal.Fr.Vend m c Cert.KernelIdeal.main_v5, Cert.KernelIdeal.Fr.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2]
  exact (result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
